-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S200000x2 : Shape := ⟨2, ![200000, 2]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S3x64 .f32) (main_arg7 : FVec F S3x64x64 .f32) (main_arg8 : FVec F S128x64 .f32) (main_arg9 : FVec F S64 .f32) (main_arg10 : FVec F S64x1 .f32) (main_arg11 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1250000 32) (main_arg2 : IVec S200000x2 32) (main_arg3 : FVec F S128x64 .f32) (main_arg4 : FVec F S64 .f32) (main_arg5 : FVec F S3x64x64 .f32) (main_arg6 : FVec F S3x64 .f32) (main_arg7 : FVec F S3x64x64 .f32) (main_arg8 : FVec F S128x64 .f32) (main_arg9 : FVec F S64 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1250000 : Shape := ⟨2, ![2, 1250000]⟩
abbrev S200000x2 : Shape := ⟨2, ![200000, 2]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S1250000x64 : Shape := ⟨2, ![1250000, 64]⟩
abbrev S1x64x64 : Shape := ⟨3, ![1, 64, 64]⟩
abbrev S64x64 : Shape := ⟨2, ![64, 64]⟩
abbrev S200000x1 : Shape := ⟨2, ![200000, 1]⟩
abbrev S200000 : Shape := ⟨1, ![200000]⟩
abbrev S200000x64 : Shape := ⟨2, ![200000, 64]⟩
abbrev S200000x128 : Shape := ⟨2, ![200000, 128]⟩
abbrev S10000x1 : Shape := ⟨2, ![10000, 1]⟩
abbrev S1x1 : Shape := ⟨2, ![1, 1]⟩

abbrev nBuf : Space → Nat
  | .hbm => 128
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S200000x2, .i32⟩
  | .hbm, ⟨3, _⟩ => ⟨S128x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x1250000, .i32⟩
  | .hbm, ⟨13, _⟩ => ⟨S1250000, .i32⟩
  | .hbm, ⟨14, _⟩ => ⟨S1x1250000, .i32⟩
  | .hbm, ⟨15, _⟩ => ⟨S1250000, .i32⟩
  | .hbm, ⟨16, _⟩ => ⟨S_, .f32⟩
  | .hbm, ⟨17, _⟩ => ⟨S1250000, .f32⟩
  | .hbm, ⟨18, _⟩ => ⟨S_, .f32⟩
  | .hbm, ⟨19, _⟩ => ⟨S100000, .f32⟩
  | .hbm, ⟨20, _⟩ => ⟨S1250000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S_, .i32⟩
  | .hbm, ⟨38, _⟩ => ⟨S1250000, .i32⟩
  | .hbm, ⟨39, _⟩ => ⟨S1250000, .i1⟩
  | .hbm, ⟨40, _⟩ => ⟨S_, .i32⟩
  | .hbm, ⟨41, _⟩ => ⟨S1250000, .i32⟩
  | .hbm, ⟨42, _⟩ => ⟨S1250000, .i32⟩
  | .hbm, ⟨43, _⟩ => ⟨S1250000, .i32⟩
  | .hbm, ⟨44, _⟩ => ⟨S1250000x1, .i32⟩
  | .hbm, ⟨45, _⟩ => ⟨S1250000x64, .f32⟩
  | .hbm, ⟨46, _⟩ => ⟨S_, .f32⟩
  | .hbm, ⟨47, _⟩ => ⟨S100000x64, .f32⟩
  | .hbm, ⟨48, _⟩ => ⟨S1250000x1, .i32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64x64, .f32⟩
  | .hbm, ⟨53, _⟩ => ⟨S64x64, .f32⟩
  | .hbm, ⟨54, _⟩ => ⟨S1x64, .f32⟩
  | .hbm, ⟨55, _⟩ => ⟨S64, .f32⟩
  | .hbm, ⟨56, _⟩ => ⟨S1x64x64, .f32⟩
  | .hbm, ⟨57, _⟩ => ⟨S64x64, .f32⟩
  | .hbm, ⟨58, _⟩ => ⟨S100000x64, .f32⟩
  | .hbm, ⟨59, _⟩ => ⟨S_, .i32⟩
  | .hbm, ⟨60, _⟩ => ⟨S1250000, .i32⟩
  | .hbm, ⟨61, _⟩ => ⟨S1250000, .i1⟩
  | .hbm, ⟨62, _⟩ => ⟨S_, .i32⟩
  | .hbm, ⟨63, _⟩ => ⟨S1250000, .i32⟩
  | .hbm, ⟨64, _⟩ => ⟨S1250000, .i32⟩
  | .hbm, ⟨65, _⟩ => ⟨S1250000, .i32⟩
  | .hbm, ⟨66, _⟩ => ⟨S1250000x1, .i32⟩
  | .hbm, ⟨67, _⟩ => ⟨S1250000x64, .f32⟩
  | .hbm, ⟨68, _⟩ => ⟨S_, .f32⟩
  | .hbm, ⟨69, _⟩ => ⟨S100000x64, .f32⟩
  | .hbm, ⟨70, _⟩ => ⟨S1250000x1, .i32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64x64, .f32⟩
  | .hbm, ⟨75, _⟩ => ⟨S64x64, .f32⟩
  | .hbm, ⟨76, _⟩ => ⟨S1x64, .f32⟩
  | .hbm, ⟨77, _⟩ => ⟨S64, .f32⟩
  | .hbm, ⟨78, _⟩ => ⟨S1x64x64, .f32⟩
  | .hbm, ⟨79, _⟩ => ⟨S64x64, .f32⟩
  | .hbm, ⟨80, _⟩ => ⟨S100000x64, .f32⟩
  | .hbm, ⟨81, _⟩ => ⟨S_, .i32⟩
  | .hbm, ⟨82, _⟩ => ⟨S1250000, .i32⟩
  | .hbm, ⟨83, _⟩ => ⟨S1250000, .i1⟩
  | .hbm, ⟨84, _⟩ => ⟨S_, .i32⟩
  | .hbm, ⟨85, _⟩ => ⟨S1250000, .i32⟩
  | .hbm, ⟨86, _⟩ => ⟨S1250000, .i32⟩
  | .hbm, ⟨87, _⟩ => ⟨S1250000, .i32⟩
  | .hbm, ⟨88, _⟩ => ⟨S1250000x1, .i32⟩
  | .hbm, ⟨89, _⟩ => ⟨S1250000x64, .f32⟩
  | .hbm, ⟨90, _⟩ => ⟨S_, .f32⟩
  | .hbm, ⟨91, _⟩ => ⟨S100000x64, .f32⟩
  | .hbm, ⟨92, _⟩ => ⟨S1250000x1, .i32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64x64, .f32⟩
  | .hbm, ⟨97, _⟩ => ⟨S64x64, .f32⟩
  | .hbm, ⟨98, _⟩ => ⟨S1x64, .f32⟩
  | .hbm, ⟨99, _⟩ => ⟨S64, .f32⟩
  | .hbm, ⟨100, _⟩ => ⟨S1x64x64, .f32⟩
  | .hbm, ⟨101, _⟩ => ⟨S64x64, .f32⟩
  | .hbm, ⟨102, _⟩ => ⟨S100000x64, .f32⟩
  | .hbm, ⟨103, _⟩ => ⟨S200000x1, .i32⟩
  | .hbm, ⟨104, _⟩ => ⟨S200000, .i32⟩
  | .hbm, ⟨105, _⟩ => ⟨S200000x1, .i32⟩
  | .hbm, ⟨106, _⟩ => ⟨S200000, .i32⟩
  | .hbm, ⟨107, _⟩ => ⟨S_, .i32⟩
  | .hbm, ⟨108, _⟩ => ⟨S200000, .i32⟩
  | .hbm, ⟨109, _⟩ => ⟨S200000, .i1⟩
  | .hbm, ⟨110, _⟩ => ⟨S_, .i32⟩
  | .hbm, ⟨111, _⟩ => ⟨S200000, .i32⟩
  | .hbm, ⟨112, _⟩ => ⟨S200000, .i32⟩
  | .hbm, ⟨113, _⟩ => ⟨S200000, .i32⟩
  | .hbm, ⟨114, _⟩ => ⟨S200000x1, .i32⟩
  | .hbm, ⟨115, _⟩ => ⟨S200000x64, .f32⟩
  | .hbm, ⟨116, _⟩ => ⟨S_, .i32⟩
  | .hbm, ⟨117, _⟩ => ⟨S200000, .i32⟩
  | .hbm, ⟨118, _⟩ => ⟨S200000, .i1⟩
  | .hbm, ⟨119, _⟩ => ⟨S_, .i32⟩
  | .hbm, ⟨120, _⟩ => ⟨S200000, .i32⟩
  | .hbm, ⟨121, _⟩ => ⟨S200000, .i32⟩
  | .hbm, ⟨122, _⟩ => ⟨S200000, .i32⟩
  | .hbm, ⟨123, _⟩ => ⟨S200000x1, .i32⟩
  | .hbm, ⟨124, _⟩ => ⟨S200000x64, .f32⟩
  | .hbm, ⟨125, _⟩ => ⟨S200000x128, .f32⟩
  | .hbm, ⟨126, _⟩ => ⟨S200000x1, .f32⟩
  | .hbm, ⟨127, _⟩ => ⟨S200000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x128, .f32⟩
  | .local _ .vmem, ⟨34, _⟩ => ⟨S10000x128, .f32⟩
  | .local _ .vmem, ⟨35, _⟩ => ⟨S128x64, .f32⟩
  | .local _ .vmem, ⟨36, _⟩ => ⟨S64, .f32⟩
  | .local _ .vmem, ⟨37, _⟩ => ⟨S64x1, .f32⟩
  | .local _ .vmem, ⟨38, _⟩ => ⟨S1, .f32⟩
  | .local _ .vmem, ⟨39, _⟩ => ⟨S10000x1, .f32⟩
  | .local _ .vmem, ⟨40, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_13 : Ref sig .tc := ⟨.hbm, 107, rfl⟩
abbrev main_v78 : Ref sig .tc := ⟨.hbm, 108, rfl⟩
abbrev main_v79 : Ref sig .tc := ⟨.hbm, 109, rfl⟩
abbrev main_c_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_15 : Ref sig .tc := ⟨.hbm, 116, rfl⟩
abbrev main_v85 : Ref sig .tc := ⟨.hbm, 117, rfl⟩
abbrev main_v86 : Ref sig .tc := ⟨.hbm, 118, rfl⟩
abbrev main_c_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S64 : S64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  shapeCasts_S10000x128_S10000x128 : S10000x128.ShapeCasts S10000x128
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1250000x1_S1250000_n_0_0_1_wf : ScatterDims.WF S100000 S1250000x1 S1250000 [] [0] [0] 1
  dot_S10000x128_S128x64_S10000x64_1_0_0_1_n_n_wf : DotDims.WF S10000x128 S128x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  gather_S100000x64_S200000x1_S200000x64_1_0_n_n_0_1_164_wf : GatherDims.WF S100000x64 S200000x1 S200000x64 [1] [0] [] [0] [] 1 ![1, 64]
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S200000x128.size a
  hwx4_0 : ∀ i : grid4.Coords, EltTy.bits .f32 = 32 ∨ (Rect.block (s := S200000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S200000x1.size a
  hwx4_5 : ∀ i : grid4.Coords, EltTy.bits .f32 = 32 ∨ (Rect.block (s := S200000x1) S10000x1.size (cc4_transform_5 i) (hinb4_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S200000x2 : Shape := ⟨2, ![200000, 2]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S100000x64 : Shape := ⟨2, ![100000, 64]⟩
abbrev S1x64 : Shape := ⟨2, ![1, 64]⟩
abbrev S1250000x64 : Shape := ⟨2, ![1250000, 64]⟩
abbrev S1x64x64 : Shape := ⟨3, ![1, 64, 64]⟩
abbrev S64x64 : Shape := ⟨2, ![64, 64]⟩
abbrev S200000x1 : Shape := ⟨2, ![200000, 1]⟩
abbrev S200000 : Shape := ⟨1, ![200000]⟩
abbrev S200000x64 : Shape := ⟨2, ![200000, 64]⟩
abbrev S200000x128 : Shape := ⟨2, ![200000, 128]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1250000, .i32⟩
  | 2 => ⟨S200000x2, .i32⟩
  | 3 => ⟨S128x64, .f32⟩
  | 4 => ⟨S64, .f32⟩
  | 5 => ⟨S3x64x64, .f32⟩
  | 6 => ⟨S3x64, .f32⟩
  | 7 => ⟨S3x64x64, .f32⟩
  | 8 => ⟨S128x64, .f32⟩
  | 9 => ⟨S64, .f32⟩
  | 10 => ⟨S64x1, .f32⟩
  | 11 => ⟨S1, .f32⟩
  | 12 => ⟨S1x1250000, .i32⟩
  | 13 => ⟨S1250000, .i32⟩
  | 14 => ⟨S1x1250000, .i32⟩
  | 15 => ⟨S1250000, .i32⟩
  | 16 => ⟨S_, .f32⟩
  | 17 => ⟨S1250000, .f32⟩
  | 18 => ⟨S_, .f32⟩
  | 19 => ⟨S100000, .f32⟩
  | 20 => ⟨S1250000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S100000x1, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .i32⟩
  | 44 => ⟨S1250000, .i32⟩
  | 45 => ⟨S1250000, .i1⟩
  | 46 => ⟨S_, .i32⟩
  | 47 => ⟨S1250000, .i32⟩
  | 48 => ⟨S1250000, .i32⟩
  | 49 => ⟨S1250000, .i32⟩
  | 50 => ⟨S1250000x1, .i32⟩
  | 51 => ⟨S1250000x64, .f32⟩
  | 52 => ⟨S_, .f32⟩
  | 53 => ⟨S100000x64, .f32⟩
  | 54 => ⟨S1250000x1, .i32⟩
  | 55 => ⟨S100000x64, .f32⟩
  | 56 => ⟨S100000x64, .f32⟩
  | 57 => ⟨S100000x64, .f32⟩
  | 58 => ⟨S1x64x64, .f32⟩
  | 59 => ⟨S64x64, .f32⟩
  | 60 => ⟨S100000x64, .f32⟩
  | 61 => ⟨S1x64, .f32⟩
  | 62 => ⟨S64, .f32⟩
  | 63 => ⟨S1x64, .f32⟩
  | 64 => ⟨S100000x64, .f32⟩
  | 65 => ⟨S100000x64, .f32⟩
  | 66 => ⟨S1x64x64, .f32⟩
  | 67 => ⟨S64x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .i32⟩
  | 74 => ⟨S1250000, .i32⟩
  | 75 => ⟨S1250000, .i1⟩
  | 76 => ⟨S_, .i32⟩
  | 77 => ⟨S1250000, .i32⟩
  | 78 => ⟨S1250000, .i32⟩
  | 79 => ⟨S1250000, .i32⟩
  | 80 => ⟨S1250000x1, .i32⟩
  | 81 => ⟨S1250000x64, .f32⟩
  | 82 => ⟨S_, .f32⟩
  | 83 => ⟨S100000x64, .f32⟩
  | 84 => ⟨S1250000x1, .i32⟩
  | 85 => ⟨S100000x64, .f32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S1x64x64, .f32⟩
  | 97 => ⟨S64x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .i32⟩
  | 104 => ⟨S1250000, .i32⟩
  | 105 => ⟨S1250000, .i1⟩
  | 106 => ⟨S_, .i32⟩
  | 107 => ⟨S1250000, .i32⟩
  | 108 => ⟨S1250000, .i32⟩
  | 109 => ⟨S1250000, .i32⟩
  | 110 => ⟨S1250000x1, .i32⟩
  | 111 => ⟨S1250000x64, .f32⟩
  | 112 => ⟨S_, .f32⟩
  | 113 => ⟨S100000x64, .f32⟩
  | 114 => ⟨S1250000x1, .i32⟩
  | 115 => ⟨S100000x64, .f32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S1x64x64, .f32⟩
  | 127 => ⟨S64x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S200000x1, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x64, .f32⟩
  | 16 => ⟨S200000x1, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x64, .f32⟩
  | 27 => ⟨S200000x128, .f32⟩
  | 28 => ⟨S200000x64, .f32⟩
  | 29 => ⟨S1x64, .f32⟩
  | 30 => ⟨S200000x64, .f32⟩
  | 31 => ⟨S200000x64, .f32⟩
  | 32 => ⟨S_, .f32⟩
  | 33 => ⟨S200000x64, .f32⟩
  | 34 => ⟨S200000x64, .f32⟩
  | 35 => ⟨S200000x1, .f32⟩
  | 36 => ⟨S1x1, .f32⟩
  | 37 => ⟨S200000x1, .f32⟩
  | 38 => ⟨S200000x1, .f32⟩
  | 39 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_cst : Ref sig .tc := ⟨.hbm, 40, rfl⟩
abbrev main_call1_v0 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call2_cst : Ref sig .tc := ⟨.hbm, 70, rfl⟩
abbrev main_call2_v0 : Ref sig .tc := ⟨.hbm, 71, rfl⟩
abbrev main_v45 : Ref sig .tc := ⟨.hbm, 72, rfl⟩
abbrev main_c_7 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_c_10 : Ref sig .tc := ⟨.hbm, 103, rfl⟩
abbrev main_v71 : Ref sig .tc := ⟨.hbm, 104, rfl⟩
abbrev main_v72 : Ref sig .tc := ⟨.hbm, 105, rfl⟩
abbrev main_c_11 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call4_cst : Ref sig .tc := ⟨.hbm, 130, rfl⟩
abbrev main_call4_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_13 : Ref sig .tc := ⟨.hbm, 135, rfl⟩
abbrev main_v98 : Ref sig .tc := ⟨.hbm, 136, rfl⟩
abbrev main_v99 : Ref sig .tc := ⟨.hbm, 137, rfl⟩
abbrev main_c_14 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_15 : Ref sig .tc := ⟨.hbm, 146, rfl⟩
abbrev main_v107 : Ref sig .tc := ⟨.hbm, 147, rfl⟩
abbrev main_v108 : Ref sig .tc := ⟨.hbm, 148, rfl⟩
abbrev main_c_16 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call5_cst : Ref sig .tc := ⟨.hbm, 160, rfl⟩
abbrev main_call5_v0 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x64_S200000x64_S200000x128_d1 : Shape.Concatenates [S200000x64, S200000x64] S200000x128 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S100000_S1250000x1_S1250000_n_0_0_1_wf : ScatterDims.WF S100000 S1250000x1 S1250000 [] [0] [0] 1
  dot_S100000x128_S128x64_S100000x64_1_0_0_1_n_n_wf : DotDims.WF S100000x128 S128x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.FoldRun.lean ====
/-
  The idealized kernel's run, with what every buffer holds at the end.

  @main is thirteen segments in a row: stretches of host operations and five pallas_call regions. The
  contents of the TensorCore's buffers at each boundary are a fold from the launch memory: a host stretch
  applies its operations, a region leaves each of its arrays at what its grid points wrote back and every
  other buffer as it found it. This module states the one fact the value proof needs of the run: every
  weakly fair execution terminates, nothing faulting, and every unscoped buffer ends at the last
  valuation of that fold. The frame claim keeps only the arguments of it; the value keeps the result.
-/
import proofs.«139122_j87677462380867_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final memory every
    unscoped buffer of every core holds the fold's last valuation `W13`. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run with the result buffer and the twelve arguments read off the fold's last valuation. -/
theorem run_result : θ_run defs (onTc (τ := τ) (main (F := F))) ⟨m, fun _ => 0, ρ⟩ (fun r => ∀ c : Dev nD,
      r.2.mem ((c.tc : Thread nD τ).loc main_v94) = W13 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v94 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c)⟩)
    (run_fold m ρ)

end Cert.KernelIdeal.Fold

end
-- ==== Proof.Carry.lean ====
/-
  Buffers that a stretch of @main leaves alone.

  The contents of the TensorCore's buffers at the thirteen segment boundaries are a fold (`W0` … `W13`). A host
  stretch changes only the buffers its operations write, and a pallas_call region changes only its windows'
  arrays. So a buffer written early and read late — the two index vectors, the inverse-degree column, a layer's
  node features, an argument of @main — holds at the later boundary what it held when it was last written.
  This module records those facts one boundary at a time and chains them.
-/
import proofs.«139122_j87677462380867_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves a buffer that none of its operations writes as it found it: every operation's written
    buffer is a different reference. -/
macro "quiet_host" : tactic => `(tactic| (
  refine StableHlo.after_of_forall_not_mem _ _ (List.forall_iff_forall_mem.mp ?_)
  simp only [hostOps0, hostOps0_1, hostOps0_2, hostOps1, hostOps2, hostOps3, hostOps4, hostOps5,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## One boundary back -/

theorem st1_main_arg0 (c : Dev nD) : W1 m ρ c (Proc.devRef .tc main_arg0) = W0 m ρ c (Proc.devRef .tc main_arg0) := by quiet_host
theorem st2_main_arg0 (c : Dev nD) : W2 m ρ c (Proc.devRef .tc main_arg0) = W1 m ρ c (Proc.devRef .tc main_arg0) := by quiet_host
theorem st3_main_arg0 (c : Dev nD) : W3 m ρ c (Proc.devRef .tc main_arg0) = W2 m ρ c (Proc.devRef .tc main_arg0) := by quiet_host
theorem st1_main_arg3 (c : Dev nD) : W1 m ρ c (Proc.devRef .tc main_arg3) = W0 m ρ c (Proc.devRef .tc main_arg3) := by quiet_host
theorem st2_main_arg3 (c : Dev nD) : W2 m ρ c (Proc.devRef .tc main_arg3) = W1 m ρ c (Proc.devRef .tc main_arg3) := by quiet_host
theorem st3_main_arg3 (c : Dev nD) : W3 m ρ c (Proc.devRef .tc main_arg3) = W2 m ρ c (Proc.devRef .tc main_arg3) := by quiet_host
theorem st1_main_arg4 (c : Dev nD) : W1 m ρ c (Proc.devRef .tc main_arg4) = W0 m ρ c (Proc.devRef .tc main_arg4) := by quiet_host
theorem st2_main_arg4 (c : Dev nD) : W2 m ρ c (Proc.devRef .tc main_arg4) = W1 m ρ c (Proc.devRef .tc main_arg4) := by quiet_host
theorem st3_main_arg4 (c : Dev nD) : W3 m ρ c (Proc.devRef .tc main_arg4) = W2 m ρ c (Proc.devRef .tc main_arg4) := by quiet_host
theorem st1_main_arg5 (c : Dev nD) : W1 m ρ c (Proc.devRef .tc main_arg5) = W0 m ρ c (Proc.devRef .tc main_arg5) := by quiet_host
theorem st2_main_arg5 (c : Dev nD) : W2 m ρ c (Proc.devRef .tc main_arg5) = W1 m ρ c (Proc.devRef .tc main_arg5) := by quiet_host
theorem st3_main_arg5 (c : Dev nD) : W3 m ρ c (Proc.devRef .tc main_arg5) = W2 m ρ c (Proc.devRef .tc main_arg5) := by quiet_host
theorem st4_main_arg5 (c : Dev nD) : W4 m ρ c (Proc.devRef .tc main_arg5) = W3 m ρ c (Proc.devRef .tc main_arg5) := W4_of_ne m ρ c main_arg5 (by decide)
theorem st5_main_arg5 (c : Dev nD) : W5 m ρ c (Proc.devRef .tc main_arg5) = W4 m ρ c (Proc.devRef .tc main_arg5) := by quiet_host
theorem st6_main_arg5 (c : Dev nD) : W6 m ρ c (Proc.devRef .tc main_arg5) = W5 m ρ c (Proc.devRef .tc main_arg5) := W6_of_ne m ρ c main_arg5 (by decide)
theorem st7_main_arg5 (c : Dev nD) : W7 m ρ c (Proc.devRef .tc main_arg5) = W6 m ρ c (Proc.devRef .tc main_arg5) := by quiet_host
theorem st8_main_arg5 (c : Dev nD) : W8 m ρ c (Proc.devRef .tc main_arg5) = W7 m ρ c (Proc.devRef .tc main_arg5) := W8_of_ne m ρ c main_arg5 (by decide)
theorem st1_main_arg6 (c : Dev nD) : W1 m ρ c (Proc.devRef .tc main_arg6) = W0 m ρ c (Proc.devRef .tc main_arg6) := by quiet_host
theorem st2_main_arg6 (c : Dev nD) : W2 m ρ c (Proc.devRef .tc main_arg6) = W1 m ρ c (Proc.devRef .tc main_arg6) := by quiet_host
theorem st3_main_arg6 (c : Dev nD) : W3 m ρ c (Proc.devRef .tc main_arg6) = W2 m ρ c (Proc.devRef .tc main_arg6) := by quiet_host
theorem st4_main_arg6 (c : Dev nD) : W4 m ρ c (Proc.devRef .tc main_arg6) = W3 m ρ c (Proc.devRef .tc main_arg6) := W4_of_ne m ρ c main_arg6 (by decide)
theorem st5_main_arg6 (c : Dev nD) : W5 m ρ c (Proc.devRef .tc main_arg6) = W4 m ρ c (Proc.devRef .tc main_arg6) := by quiet_host
theorem st6_main_arg6 (c : Dev nD) : W6 m ρ c (Proc.devRef .tc main_arg6) = W5 m ρ c (Proc.devRef .tc main_arg6) := W6_of_ne m ρ c main_arg6 (by decide)
theorem st7_main_arg6 (c : Dev nD) : W7 m ρ c (Proc.devRef .tc main_arg6) = W6 m ρ c (Proc.devRef .tc main_arg6) := by quiet_host
theorem st8_main_arg6 (c : Dev nD) : W8 m ρ c (Proc.devRef .tc main_arg6) = W7 m ρ c (Proc.devRef .tc main_arg6) := W8_of_ne m ρ c main_arg6 (by decide)
theorem st1_main_arg7 (c : Dev nD) : W1 m ρ c (Proc.devRef .tc main_arg7) = W0 m ρ c (Proc.devRef .tc main_arg7) := by quiet_host
theorem st2_main_arg7 (c : Dev nD) : W2 m ρ c (Proc.devRef .tc main_arg7) = W1 m ρ c (Proc.devRef .tc main_arg7) := by quiet_host
theorem st3_main_arg7 (c : Dev nD) : W3 m ρ c (Proc.devRef .tc main_arg7) = W2 m ρ c (Proc.devRef .tc main_arg7) := by quiet_host
theorem st4_main_arg7 (c : Dev nD) : W4 m ρ c (Proc.devRef .tc main_arg7) = W3 m ρ c (Proc.devRef .tc main_arg7) := W4_of_ne m ρ c main_arg7 (by decide)
theorem st5_main_arg7 (c : Dev nD) : W5 m ρ c (Proc.devRef .tc main_arg7) = W4 m ρ c (Proc.devRef .tc main_arg7) := by quiet_host
theorem st6_main_arg7 (c : Dev nD) : W6 m ρ c (Proc.devRef .tc main_arg7) = W5 m ρ c (Proc.devRef .tc main_arg7) := W6_of_ne m ρ c main_arg7 (by decide)
theorem st7_main_arg7 (c : Dev nD) : W7 m ρ c (Proc.devRef .tc main_arg7) = W6 m ρ c (Proc.devRef .tc main_arg7) := by quiet_host
theorem st8_main_arg7 (c : Dev nD) : W8 m ρ c (Proc.devRef .tc main_arg7) = W7 m ρ c (Proc.devRef .tc main_arg7) := W8_of_ne m ρ c main_arg7 (by decide)
theorem st1_main_arg2 (c : Dev nD) : W1 m ρ c (Proc.devRef .tc main_arg2) = W0 m ρ c (Proc.devRef .tc main_arg2) := by quiet_host
theorem st2_main_arg2 (c : Dev nD) : W2 m ρ c (Proc.devRef .tc main_arg2) = W1 m ρ c (Proc.devRef .tc main_arg2) := by quiet_host
theorem st3_main_arg2 (c : Dev nD) : W3 m ρ c (Proc.devRef .tc main_arg2) = W2 m ρ c (Proc.devRef .tc main_arg2) := by quiet_host
theorem st4_main_arg2 (c : Dev nD) : W4 m ρ c (Proc.devRef .tc main_arg2) = W3 m ρ c (Proc.devRef .tc main_arg2) := W4_of_ne m ρ c main_arg2 (by decide)
theorem st5_main_arg2 (c : Dev nD) : W5 m ρ c (Proc.devRef .tc main_arg2) = W4 m ρ c (Proc.devRef .tc main_arg2) := by quiet_host
theorem st6_main_arg2 (c : Dev nD) : W6 m ρ c (Proc.devRef .tc main_arg2) = W5 m ρ c (Proc.devRef .tc main_arg2) := W6_of_ne m ρ c main_arg2 (by decide)
theorem st7_main_arg2 (c : Dev nD) : W7 m ρ c (Proc.devRef .tc main_arg2) = W6 m ρ c (Proc.devRef .tc main_arg2) := by quiet_host
theorem st8_main_arg2 (c : Dev nD) : W8 m ρ c (Proc.devRef .tc main_arg2) = W7 m ρ c (Proc.devRef .tc main_arg2) := W8_of_ne m ρ c main_arg2 (by decide)
theorem st9_main_arg2 (c : Dev nD) : W9 m ρ c (Proc.devRef .tc main_arg2) = W8 m ρ c (Proc.devRef .tc main_arg2) := by quiet_host
theorem st10_main_arg2 (c : Dev nD) : W10 m ρ c (Proc.devRef .tc main_arg2) = W9 m ρ c (Proc.devRef .tc main_arg2) := W10_of_ne m ρ c main_arg2 (by decide)
theorem st1_main_arg8 (c : Dev nD) : W1 m ρ c (Proc.devRef .tc main_arg8) = W0 m ρ c (Proc.devRef .tc main_arg8) := by quiet_host
theorem st2_main_arg8 (c : Dev nD) : W2 m ρ c (Proc.devRef .tc main_arg8) = W1 m ρ c (Proc.devRef .tc main_arg8) := by quiet_host
theorem st3_main_arg8 (c : Dev nD) : W3 m ρ c (Proc.devRef .tc main_arg8) = W2 m ρ c (Proc.devRef .tc main_arg8) := by quiet_host
theorem st4_main_arg8 (c : Dev nD) : W4 m ρ c (Proc.devRef .tc main_arg8) = W3 m ρ c (Proc.devRef .tc main_arg8) := W4_of_ne m ρ c main_arg8 (by decide)
theorem st5_main_arg8 (c : Dev nD) : W5 m ρ c (Proc.devRef .tc main_arg8) = W4 m ρ c (Proc.devRef .tc main_arg8) := by quiet_host
theorem st6_main_arg8 (c : Dev nD) : W6 m ρ c (Proc.devRef .tc main_arg8) = W5 m ρ c (Proc.devRef .tc main_arg8) := W6_of_ne m ρ c main_arg8 (by decide)
theorem st7_main_arg8 (c : Dev nD) : W7 m ρ c (Proc.devRef .tc main_arg8) = W6 m ρ c (Proc.devRef .tc main_arg8) := by quiet_host
theorem st8_main_arg8 (c : Dev nD) : W8 m ρ c (Proc.devRef .tc main_arg8) = W7 m ρ c (Proc.devRef .tc main_arg8) := W8_of_ne m ρ c main_arg8 (by decide)
theorem st9_main_arg8 (c : Dev nD) : W9 m ρ c (Proc.devRef .tc main_arg8) = W8 m ρ c (Proc.devRef .tc main_arg8) := by quiet_host
theorem st10_main_arg8 (c : Dev nD) : W10 m ρ c (Proc.devRef .tc main_arg8) = W9 m ρ c (Proc.devRef .tc main_arg8) := W10_of_ne m ρ c main_arg8 (by decide)
theorem st11_main_arg8 (c : Dev nD) : W11 m ρ c (Proc.devRef .tc main_arg8) = W10 m ρ c (Proc.devRef .tc main_arg8) := by quiet_host
theorem st1_main_arg9 (c : Dev nD) : W1 m ρ c (Proc.devRef .tc main_arg9) = W0 m ρ c (Proc.devRef .tc main_arg9) := by quiet_host
theorem st2_main_arg9 (c : Dev nD) : W2 m ρ c (Proc.devRef .tc main_arg9) = W1 m ρ c (Proc.devRef .tc main_arg9) := by quiet_host
theorem st3_main_arg9 (c : Dev nD) : W3 m ρ c (Proc.devRef .tc main_arg9) = W2 m ρ c (Proc.devRef .tc main_arg9) := by quiet_host
theorem st4_main_arg9 (c : Dev nD) : W4 m ρ c (Proc.devRef .tc main_arg9) = W3 m ρ c (Proc.devRef .tc main_arg9) := W4_of_ne m ρ c main_arg9 (by decide)
theorem st5_main_arg9 (c : Dev nD) : W5 m ρ c (Proc.devRef .tc main_arg9) = W4 m ρ c (Proc.devRef .tc main_arg9) := by quiet_host
theorem st6_main_arg9 (c : Dev nD) : W6 m ρ c (Proc.devRef .tc main_arg9) = W5 m ρ c (Proc.devRef .tc main_arg9) := W6_of_ne m ρ c main_arg9 (by decide)
theorem st7_main_arg9 (c : Dev nD) : W7 m ρ c (Proc.devRef .tc main_arg9) = W6 m ρ c (Proc.devRef .tc main_arg9) := by quiet_host
theorem st8_main_arg9 (c : Dev nD) : W8 m ρ c (Proc.devRef .tc main_arg9) = W7 m ρ c (Proc.devRef .tc main_arg9) := W8_of_ne m ρ c main_arg9 (by decide)
theorem st9_main_arg9 (c : Dev nD) : W9 m ρ c (Proc.devRef .tc main_arg9) = W8 m ρ c (Proc.devRef .tc main_arg9) := by quiet_host
theorem st10_main_arg9 (c : Dev nD) : W10 m ρ c (Proc.devRef .tc main_arg9) = W9 m ρ c (Proc.devRef .tc main_arg9) := W10_of_ne m ρ c main_arg9 (by decide)
theorem st11_main_arg9 (c : Dev nD) : W11 m ρ c (Proc.devRef .tc main_arg9) = W10 m ρ c (Proc.devRef .tc main_arg9) := by quiet_host
theorem st1_main_arg10 (c : Dev nD) : W1 m ρ c (Proc.devRef .tc main_arg10) = W0 m ρ c (Proc.devRef .tc main_arg10) := by quiet_host
theorem st2_main_arg10 (c : Dev nD) : W2 m ρ c (Proc.devRef .tc main_arg10) = W1 m ρ c (Proc.devRef .tc main_arg10) := by quiet_host
theorem st3_main_arg10 (c : Dev nD) : W3 m ρ c (Proc.devRef .tc main_arg10) = W2 m ρ c (Proc.devRef .tc main_arg10) := by quiet_host
theorem st4_main_arg10 (c : Dev nD) : W4 m ρ c (Proc.devRef .tc main_arg10) = W3 m ρ c (Proc.devRef .tc main_arg10) := W4_of_ne m ρ c main_arg10 (by decide)
theorem st5_main_arg10 (c : Dev nD) : W5 m ρ c (Proc.devRef .tc main_arg10) = W4 m ρ c (Proc.devRef .tc main_arg10) := by quiet_host
theorem st6_main_arg10 (c : Dev nD) : W6 m ρ c (Proc.devRef .tc main_arg10) = W5 m ρ c (Proc.devRef .tc main_arg10) := W6_of_ne m ρ c main_arg10 (by decide)
theorem st7_main_arg10 (c : Dev nD) : W7 m ρ c (Proc.devRef .tc main_arg10) = W6 m ρ c (Proc.devRef .tc main_arg10) := by quiet_host
theorem st8_main_arg10 (c : Dev nD) : W8 m ρ c (Proc.devRef .tc main_arg10) = W7 m ρ c (Proc.devRef .tc main_arg10) := W8_of_ne m ρ c main_arg10 (by decide)
theorem st9_main_arg10 (c : Dev nD) : W9 m ρ c (Proc.devRef .tc main_arg10) = W8 m ρ c (Proc.devRef .tc main_arg10) := by quiet_host
theorem st10_main_arg10 (c : Dev nD) : W10 m ρ c (Proc.devRef .tc main_arg10) = W9 m ρ c (Proc.devRef .tc main_arg10) := W10_of_ne m ρ c main_arg10 (by decide)
theorem st11_main_arg10 (c : Dev nD) : W11 m ρ c (Proc.devRef .tc main_arg10) = W10 m ρ c (Proc.devRef .tc main_arg10) := by quiet_host
theorem st1_main_arg11 (c : Dev nD) : W1 m ρ c (Proc.devRef .tc main_arg11) = W0 m ρ c (Proc.devRef .tc main_arg11) := by quiet_host
theorem st2_main_arg11 (c : Dev nD) : W2 m ρ c (Proc.devRef .tc main_arg11) = W1 m ρ c (Proc.devRef .tc main_arg11) := by quiet_host
theorem st3_main_arg11 (c : Dev nD) : W3 m ρ c (Proc.devRef .tc main_arg11) = W2 m ρ c (Proc.devRef .tc main_arg11) := by quiet_host
theorem st4_main_arg11 (c : Dev nD) : W4 m ρ c (Proc.devRef .tc main_arg11) = W3 m ρ c (Proc.devRef .tc main_arg11) := W4_of_ne m ρ c main_arg11 (by decide)
theorem st5_main_arg11 (c : Dev nD) : W5 m ρ c (Proc.devRef .tc main_arg11) = W4 m ρ c (Proc.devRef .tc main_arg11) := by quiet_host
theorem st6_main_arg11 (c : Dev nD) : W6 m ρ c (Proc.devRef .tc main_arg11) = W5 m ρ c (Proc.devRef .tc main_arg11) := W6_of_ne m ρ c main_arg11 (by decide)
theorem st7_main_arg11 (c : Dev nD) : W7 m ρ c (Proc.devRef .tc main_arg11) = W6 m ρ c (Proc.devRef .tc main_arg11) := by quiet_host
theorem st8_main_arg11 (c : Dev nD) : W8 m ρ c (Proc.devRef .tc main_arg11) = W7 m ρ c (Proc.devRef .tc main_arg11) := W8_of_ne m ρ c main_arg11 (by decide)
theorem st9_main_arg11 (c : Dev nD) : W9 m ρ c (Proc.devRef .tc main_arg11) = W8 m ρ c (Proc.devRef .tc main_arg11) := by quiet_host
theorem st10_main_arg11 (c : Dev nD) : W10 m ρ c (Proc.devRef .tc main_arg11) = W9 m ρ c (Proc.devRef .tc main_arg11) := W10_of_ne m ρ c main_arg11 (by decide)
theorem st11_main_arg11 (c : Dev nD) : W11 m ρ c (Proc.devRef .tc main_arg11) = W10 m ρ c (Proc.devRef .tc main_arg11) := by quiet_host
theorem st4_main_v1 (c : Dev nD) : W4 m ρ c (Proc.devRef .tc main_v1) = W3 m ρ c (Proc.devRef .tc main_v1) := W4_of_ne m ρ c main_v1 (by decide)
theorem st5_main_v1 (c : Dev nD) : W5 m ρ c (Proc.devRef .tc main_v1) = W4 m ρ c (Proc.devRef .tc main_v1) := by quiet_host
theorem st6_main_v1 (c : Dev nD) : W6 m ρ c (Proc.devRef .tc main_v1) = W5 m ρ c (Proc.devRef .tc main_v1) := W6_of_ne m ρ c main_v1 (by decide)
theorem st7_main_v1 (c : Dev nD) : W7 m ρ c (Proc.devRef .tc main_v1) = W6 m ρ c (Proc.devRef .tc main_v1) := by quiet_host
theorem st8_main_v1 (c : Dev nD) : W8 m ρ c (Proc.devRef .tc main_v1) = W7 m ρ c (Proc.devRef .tc main_v1) := W8_of_ne m ρ c main_v1 (by decide)
theorem st4_main_v3 (c : Dev nD) : W4 m ρ c (Proc.devRef .tc main_v3) = W3 m ρ c (Proc.devRef .tc main_v3) := W4_of_ne m ρ c main_v3 (by decide)
theorem st5_main_v3 (c : Dev nD) : W5 m ρ c (Proc.devRef .tc main_v3) = W4 m ρ c (Proc.devRef .tc main_v3) := by quiet_host
theorem st6_main_v3 (c : Dev nD) : W6 m ρ c (Proc.devRef .tc main_v3) = W5 m ρ c (Proc.devRef .tc main_v3) := W6_of_ne m ρ c main_v3 (by decide)
theorem st7_main_v3 (c : Dev nD) : W7 m ρ c (Proc.devRef .tc main_v3) = W6 m ρ c (Proc.devRef .tc main_v3) := by quiet_host
theorem st8_main_v3 (c : Dev nD) : W8 m ρ c (Proc.devRef .tc main_v3) = W7 m ρ c (Proc.devRef .tc main_v3) := W8_of_ne m ρ c main_v3 (by decide)
theorem st4_main_v15 (c : Dev nD) : W4 m ρ c (Proc.devRef .tc main_v15) = W3 m ρ c (Proc.devRef .tc main_v15) := W4_of_ne m ρ c main_v15 (by decide)
theorem st5_main_v15 (c : Dev nD) : W5 m ρ c (Proc.devRef .tc main_v15) = W4 m ρ c (Proc.devRef .tc main_v15) := by quiet_host
theorem st6_main_v15 (c : Dev nD) : W6 m ρ c (Proc.devRef .tc main_v15) = W5 m ρ c (Proc.devRef .tc main_v15) := W6_of_ne m ρ c main_v15 (by decide)
theorem st7_main_v15 (c : Dev nD) : W7 m ρ c (Proc.devRef .tc main_v15) = W6 m ρ c (Proc.devRef .tc main_v15) := by quiet_host
theorem st8_main_v15 (c : Dev nD) : W8 m ρ c (Proc.devRef .tc main_v15) = W7 m ρ c (Proc.devRef .tc main_v15) := W8_of_ne m ρ c main_v15 (by decide)
theorem st5_main_v16 (c : Dev nD) : W5 m ρ c (Proc.devRef .tc main_v16) = W4 m ρ c (Proc.devRef .tc main_v16) := by quiet_host
theorem st7_main_v35 (c : Dev nD) : W7 m ρ c (Proc.devRef .tc main_v35) = W6 m ρ c (Proc.devRef .tc main_v35) := by quiet_host
theorem st9_main_v54 (c : Dev nD) : W9 m ρ c (Proc.devRef .tc main_v54) = W8 m ρ c (Proc.devRef .tc main_v54) := by quiet_host

/-! ## Back to where the buffer was last written (the launch memory, for an argument) -/

theorem at1_main_arg0 (c : Dev nD) : W1 m ρ c (Proc.devRef .tc main_arg0) = m ((c : Thread nD τ).loc main_arg0) := (st1_main_arg0 m ρ c).trans (rfl)
theorem at2_main_arg0 (c : Dev nD) : W2 m ρ c (Proc.devRef .tc main_arg0) = m ((c : Thread nD τ).loc main_arg0) := (st2_main_arg0 m ρ c).trans (at1_main_arg0 m ρ c)
theorem at3_main_arg0 (c : Dev nD) : W3 m ρ c (Proc.devRef .tc main_arg0) = m ((c : Thread nD τ).loc main_arg0) := (st3_main_arg0 m ρ c).trans (at2_main_arg0 m ρ c)
theorem at1_main_arg3 (c : Dev nD) : W1 m ρ c (Proc.devRef .tc main_arg3) = m ((c : Thread nD τ).loc main_arg3) := (st1_main_arg3 m ρ c).trans (rfl)
theorem at2_main_arg3 (c : Dev nD) : W2 m ρ c (Proc.devRef .tc main_arg3) = m ((c : Thread nD τ).loc main_arg3) := (st2_main_arg3 m ρ c).trans (at1_main_arg3 m ρ c)
theorem at3_main_arg3 (c : Dev nD) : W3 m ρ c (Proc.devRef .tc main_arg3) = m ((c : Thread nD τ).loc main_arg3) := (st3_main_arg3 m ρ c).trans (at2_main_arg3 m ρ c)
theorem at1_main_arg4 (c : Dev nD) : W1 m ρ c (Proc.devRef .tc main_arg4) = m ((c : Thread nD τ).loc main_arg4) := (st1_main_arg4 m ρ c).trans (rfl)
theorem at2_main_arg4 (c : Dev nD) : W2 m ρ c (Proc.devRef .tc main_arg4) = m ((c : Thread nD τ).loc main_arg4) := (st2_main_arg4 m ρ c).trans (at1_main_arg4 m ρ c)
theorem at3_main_arg4 (c : Dev nD) : W3 m ρ c (Proc.devRef .tc main_arg4) = m ((c : Thread nD τ).loc main_arg4) := (st3_main_arg4 m ρ c).trans (at2_main_arg4 m ρ c)
theorem at1_main_arg5 (c : Dev nD) : W1 m ρ c (Proc.devRef .tc main_arg5) = m ((c : Thread nD τ).loc main_arg5) := (st1_main_arg5 m ρ c).trans (rfl)
theorem at2_main_arg5 (c : Dev nD) : W2 m ρ c (Proc.devRef .tc main_arg5) = m ((c : Thread nD τ).loc main_arg5) := (st2_main_arg5 m ρ c).trans (at1_main_arg5 m ρ c)
theorem at3_main_arg5 (c : Dev nD) : W3 m ρ c (Proc.devRef .tc main_arg5) = m ((c : Thread nD τ).loc main_arg5) := (st3_main_arg5 m ρ c).trans (at2_main_arg5 m ρ c)
theorem at4_main_arg5 (c : Dev nD) : W4 m ρ c (Proc.devRef .tc main_arg5) = m ((c : Thread nD τ).loc main_arg5) := (st4_main_arg5 m ρ c).trans (at3_main_arg5 m ρ c)
theorem at5_main_arg5 (c : Dev nD) : W5 m ρ c (Proc.devRef .tc main_arg5) = m ((c : Thread nD τ).loc main_arg5) := (st5_main_arg5 m ρ c).trans (at4_main_arg5 m ρ c)
theorem at6_main_arg5 (c : Dev nD) : W6 m ρ c (Proc.devRef .tc main_arg5) = m ((c : Thread nD τ).loc main_arg5) := (st6_main_arg5 m ρ c).trans (at5_main_arg5 m ρ c)
theorem at7_main_arg5 (c : Dev nD) : W7 m ρ c (Proc.devRef .tc main_arg5) = m ((c : Thread nD τ).loc main_arg5) := (st7_main_arg5 m ρ c).trans (at6_main_arg5 m ρ c)
theorem at8_main_arg5 (c : Dev nD) : W8 m ρ c (Proc.devRef .tc main_arg5) = m ((c : Thread nD τ).loc main_arg5) := (st8_main_arg5 m ρ c).trans (at7_main_arg5 m ρ c)
theorem at1_main_arg6 (c : Dev nD) : W1 m ρ c (Proc.devRef .tc main_arg6) = m ((c : Thread nD τ).loc main_arg6) := (st1_main_arg6 m ρ c).trans (rfl)
theorem at2_main_arg6 (c : Dev nD) : W2 m ρ c (Proc.devRef .tc main_arg6) = m ((c : Thread nD τ).loc main_arg6) := (st2_main_arg6 m ρ c).trans (at1_main_arg6 m ρ c)
theorem at3_main_arg6 (c : Dev nD) : W3 m ρ c (Proc.devRef .tc main_arg6) = m ((c : Thread nD τ).loc main_arg6) := (st3_main_arg6 m ρ c).trans (at2_main_arg6 m ρ c)
theorem at4_main_arg6 (c : Dev nD) : W4 m ρ c (Proc.devRef .tc main_arg6) = m ((c : Thread nD τ).loc main_arg6) := (st4_main_arg6 m ρ c).trans (at3_main_arg6 m ρ c)
theorem at5_main_arg6 (c : Dev nD) : W5 m ρ c (Proc.devRef .tc main_arg6) = m ((c : Thread nD τ).loc main_arg6) := (st5_main_arg6 m ρ c).trans (at4_main_arg6 m ρ c)
theorem at6_main_arg6 (c : Dev nD) : W6 m ρ c (Proc.devRef .tc main_arg6) = m ((c : Thread nD τ).loc main_arg6) := (st6_main_arg6 m ρ c).trans (at5_main_arg6 m ρ c)
theorem at7_main_arg6 (c : Dev nD) : W7 m ρ c (Proc.devRef .tc main_arg6) = m ((c : Thread nD τ).loc main_arg6) := (st7_main_arg6 m ρ c).trans (at6_main_arg6 m ρ c)
theorem at8_main_arg6 (c : Dev nD) : W8 m ρ c (Proc.devRef .tc main_arg6) = m ((c : Thread nD τ).loc main_arg6) := (st8_main_arg6 m ρ c).trans (at7_main_arg6 m ρ c)
theorem at1_main_arg7 (c : Dev nD) : W1 m ρ c (Proc.devRef .tc main_arg7) = m ((c : Thread nD τ).loc main_arg7) := (st1_main_arg7 m ρ c).trans (rfl)
theorem at2_main_arg7 (c : Dev nD) : W2 m ρ c (Proc.devRef .tc main_arg7) = m ((c : Thread nD τ).loc main_arg7) := (st2_main_arg7 m ρ c).trans (at1_main_arg7 m ρ c)
theorem at3_main_arg7 (c : Dev nD) : W3 m ρ c (Proc.devRef .tc main_arg7) = m ((c : Thread nD τ).loc main_arg7) := (st3_main_arg7 m ρ c).trans (at2_main_arg7 m ρ c)
theorem at4_main_arg7 (c : Dev nD) : W4 m ρ c (Proc.devRef .tc main_arg7) = m ((c : Thread nD τ).loc main_arg7) := (st4_main_arg7 m ρ c).trans (at3_main_arg7 m ρ c)
theorem at5_main_arg7 (c : Dev nD) : W5 m ρ c (Proc.devRef .tc main_arg7) = m ((c : Thread nD τ).loc main_arg7) := (st5_main_arg7 m ρ c).trans (at4_main_arg7 m ρ c)
theorem at6_main_arg7 (c : Dev nD) : W6 m ρ c (Proc.devRef .tc main_arg7) = m ((c : Thread nD τ).loc main_arg7) := (st6_main_arg7 m ρ c).trans (at5_main_arg7 m ρ c)
theorem at7_main_arg7 (c : Dev nD) : W7 m ρ c (Proc.devRef .tc main_arg7) = m ((c : Thread nD τ).loc main_arg7) := (st7_main_arg7 m ρ c).trans (at6_main_arg7 m ρ c)
theorem at8_main_arg7 (c : Dev nD) : W8 m ρ c (Proc.devRef .tc main_arg7) = m ((c : Thread nD τ).loc main_arg7) := (st8_main_arg7 m ρ c).trans (at7_main_arg7 m ρ c)
theorem at1_main_arg2 (c : Dev nD) : W1 m ρ c (Proc.devRef .tc main_arg2) = m ((c : Thread nD τ).loc main_arg2) := (st1_main_arg2 m ρ c).trans (rfl)
theorem at2_main_arg2 (c : Dev nD) : W2 m ρ c (Proc.devRef .tc main_arg2) = m ((c : Thread nD τ).loc main_arg2) := (st2_main_arg2 m ρ c).trans (at1_main_arg2 m ρ c)
theorem at3_main_arg2 (c : Dev nD) : W3 m ρ c (Proc.devRef .tc main_arg2) = m ((c : Thread nD τ).loc main_arg2) := (st3_main_arg2 m ρ c).trans (at2_main_arg2 m ρ c)
theorem at4_main_arg2 (c : Dev nD) : W4 m ρ c (Proc.devRef .tc main_arg2) = m ((c : Thread nD τ).loc main_arg2) := (st4_main_arg2 m ρ c).trans (at3_main_arg2 m ρ c)
theorem at5_main_arg2 (c : Dev nD) : W5 m ρ c (Proc.devRef .tc main_arg2) = m ((c : Thread nD τ).loc main_arg2) := (st5_main_arg2 m ρ c).trans (at4_main_arg2 m ρ c)
theorem at6_main_arg2 (c : Dev nD) : W6 m ρ c (Proc.devRef .tc main_arg2) = m ((c : Thread nD τ).loc main_arg2) := (st6_main_arg2 m ρ c).trans (at5_main_arg2 m ρ c)
theorem at7_main_arg2 (c : Dev nD) : W7 m ρ c (Proc.devRef .tc main_arg2) = m ((c : Thread nD τ).loc main_arg2) := (st7_main_arg2 m ρ c).trans (at6_main_arg2 m ρ c)
theorem at8_main_arg2 (c : Dev nD) : W8 m ρ c (Proc.devRef .tc main_arg2) = m ((c : Thread nD τ).loc main_arg2) := (st8_main_arg2 m ρ c).trans (at7_main_arg2 m ρ c)
theorem at9_main_arg2 (c : Dev nD) : W9 m ρ c (Proc.devRef .tc main_arg2) = m ((c : Thread nD τ).loc main_arg2) := (st9_main_arg2 m ρ c).trans (at8_main_arg2 m ρ c)
theorem at10_main_arg2 (c : Dev nD) : W10 m ρ c (Proc.devRef .tc main_arg2) = m ((c : Thread nD τ).loc main_arg2) := (st10_main_arg2 m ρ c).trans (at9_main_arg2 m ρ c)
theorem at1_main_arg8 (c : Dev nD) : W1 m ρ c (Proc.devRef .tc main_arg8) = m ((c : Thread nD τ).loc main_arg8) := (st1_main_arg8 m ρ c).trans (rfl)
theorem at2_main_arg8 (c : Dev nD) : W2 m ρ c (Proc.devRef .tc main_arg8) = m ((c : Thread nD τ).loc main_arg8) := (st2_main_arg8 m ρ c).trans (at1_main_arg8 m ρ c)
theorem at3_main_arg8 (c : Dev nD) : W3 m ρ c (Proc.devRef .tc main_arg8) = m ((c : Thread nD τ).loc main_arg8) := (st3_main_arg8 m ρ c).trans (at2_main_arg8 m ρ c)
theorem at4_main_arg8 (c : Dev nD) : W4 m ρ c (Proc.devRef .tc main_arg8) = m ((c : Thread nD τ).loc main_arg8) := (st4_main_arg8 m ρ c).trans (at3_main_arg8 m ρ c)
theorem at5_main_arg8 (c : Dev nD) : W5 m ρ c (Proc.devRef .tc main_arg8) = m ((c : Thread nD τ).loc main_arg8) := (st5_main_arg8 m ρ c).trans (at4_main_arg8 m ρ c)
theorem at6_main_arg8 (c : Dev nD) : W6 m ρ c (Proc.devRef .tc main_arg8) = m ((c : Thread nD τ).loc main_arg8) := (st6_main_arg8 m ρ c).trans (at5_main_arg8 m ρ c)
theorem at7_main_arg8 (c : Dev nD) : W7 m ρ c (Proc.devRef .tc main_arg8) = m ((c : Thread nD τ).loc main_arg8) := (st7_main_arg8 m ρ c).trans (at6_main_arg8 m ρ c)
theorem at8_main_arg8 (c : Dev nD) : W8 m ρ c (Proc.devRef .tc main_arg8) = m ((c : Thread nD τ).loc main_arg8) := (st8_main_arg8 m ρ c).trans (at7_main_arg8 m ρ c)
theorem at9_main_arg8 (c : Dev nD) : W9 m ρ c (Proc.devRef .tc main_arg8) = m ((c : Thread nD τ).loc main_arg8) := (st9_main_arg8 m ρ c).trans (at8_main_arg8 m ρ c)
theorem at10_main_arg8 (c : Dev nD) : W10 m ρ c (Proc.devRef .tc main_arg8) = m ((c : Thread nD τ).loc main_arg8) := (st10_main_arg8 m ρ c).trans (at9_main_arg8 m ρ c)
theorem at11_main_arg8 (c : Dev nD) : W11 m ρ c (Proc.devRef .tc main_arg8) = m ((c : Thread nD τ).loc main_arg8) := (st11_main_arg8 m ρ c).trans (at10_main_arg8 m ρ c)
theorem at1_main_arg9 (c : Dev nD) : W1 m ρ c (Proc.devRef .tc main_arg9) = m ((c : Thread nD τ).loc main_arg9) := (st1_main_arg9 m ρ c).trans (rfl)
theorem at2_main_arg9 (c : Dev nD) : W2 m ρ c (Proc.devRef .tc main_arg9) = m ((c : Thread nD τ).loc main_arg9) := (st2_main_arg9 m ρ c).trans (at1_main_arg9 m ρ c)
theorem at3_main_arg9 (c : Dev nD) : W3 m ρ c (Proc.devRef .tc main_arg9) = m ((c : Thread nD τ).loc main_arg9) := (st3_main_arg9 m ρ c).trans (at2_main_arg9 m ρ c)
theorem at4_main_arg9 (c : Dev nD) : W4 m ρ c (Proc.devRef .tc main_arg9) = m ((c : Thread nD τ).loc main_arg9) := (st4_main_arg9 m ρ c).trans (at3_main_arg9 m ρ c)
theorem at5_main_arg9 (c : Dev nD) : W5 m ρ c (Proc.devRef .tc main_arg9) = m ((c : Thread nD τ).loc main_arg9) := (st5_main_arg9 m ρ c).trans (at4_main_arg9 m ρ c)
theorem at6_main_arg9 (c : Dev nD) : W6 m ρ c (Proc.devRef .tc main_arg9) = m ((c : Thread nD τ).loc main_arg9) := (st6_main_arg9 m ρ c).trans (at5_main_arg9 m ρ c)
theorem at7_main_arg9 (c : Dev nD) : W7 m ρ c (Proc.devRef .tc main_arg9) = m ((c : Thread nD τ).loc main_arg9) := (st7_main_arg9 m ρ c).trans (at6_main_arg9 m ρ c)
theorem at8_main_arg9 (c : Dev nD) : W8 m ρ c (Proc.devRef .tc main_arg9) = m ((c : Thread nD τ).loc main_arg9) := (st8_main_arg9 m ρ c).trans (at7_main_arg9 m ρ c)
theorem at9_main_arg9 (c : Dev nD) : W9 m ρ c (Proc.devRef .tc main_arg9) = m ((c : Thread nD τ).loc main_arg9) := (st9_main_arg9 m ρ c).trans (at8_main_arg9 m ρ c)
theorem at10_main_arg9 (c : Dev nD) : W10 m ρ c (Proc.devRef .tc main_arg9) = m ((c : Thread nD τ).loc main_arg9) := (st10_main_arg9 m ρ c).trans (at9_main_arg9 m ρ c)
theorem at11_main_arg9 (c : Dev nD) : W11 m ρ c (Proc.devRef .tc main_arg9) = m ((c : Thread nD τ).loc main_arg9) := (st11_main_arg9 m ρ c).trans (at10_main_arg9 m ρ c)
theorem at1_main_arg10 (c : Dev nD) : W1 m ρ c (Proc.devRef .tc main_arg10) = m ((c : Thread nD τ).loc main_arg10) := (st1_main_arg10 m ρ c).trans (rfl)
theorem at2_main_arg10 (c : Dev nD) : W2 m ρ c (Proc.devRef .tc main_arg10) = m ((c : Thread nD τ).loc main_arg10) := (st2_main_arg10 m ρ c).trans (at1_main_arg10 m ρ c)
theorem at3_main_arg10 (c : Dev nD) : W3 m ρ c (Proc.devRef .tc main_arg10) = m ((c : Thread nD τ).loc main_arg10) := (st3_main_arg10 m ρ c).trans (at2_main_arg10 m ρ c)
theorem at4_main_arg10 (c : Dev nD) : W4 m ρ c (Proc.devRef .tc main_arg10) = m ((c : Thread nD τ).loc main_arg10) := (st4_main_arg10 m ρ c).trans (at3_main_arg10 m ρ c)
theorem at5_main_arg10 (c : Dev nD) : W5 m ρ c (Proc.devRef .tc main_arg10) = m ((c : Thread nD τ).loc main_arg10) := (st5_main_arg10 m ρ c).trans (at4_main_arg10 m ρ c)
theorem at6_main_arg10 (c : Dev nD) : W6 m ρ c (Proc.devRef .tc main_arg10) = m ((c : Thread nD τ).loc main_arg10) := (st6_main_arg10 m ρ c).trans (at5_main_arg10 m ρ c)
theorem at7_main_arg10 (c : Dev nD) : W7 m ρ c (Proc.devRef .tc main_arg10) = m ((c : Thread nD τ).loc main_arg10) := (st7_main_arg10 m ρ c).trans (at6_main_arg10 m ρ c)
theorem at8_main_arg10 (c : Dev nD) : W8 m ρ c (Proc.devRef .tc main_arg10) = m ((c : Thread nD τ).loc main_arg10) := (st8_main_arg10 m ρ c).trans (at7_main_arg10 m ρ c)
theorem at9_main_arg10 (c : Dev nD) : W9 m ρ c (Proc.devRef .tc main_arg10) = m ((c : Thread nD τ).loc main_arg10) := (st9_main_arg10 m ρ c).trans (at8_main_arg10 m ρ c)
theorem at10_main_arg10 (c : Dev nD) : W10 m ρ c (Proc.devRef .tc main_arg10) = m ((c : Thread nD τ).loc main_arg10) := (st10_main_arg10 m ρ c).trans (at9_main_arg10 m ρ c)
theorem at11_main_arg10 (c : Dev nD) : W11 m ρ c (Proc.devRef .tc main_arg10) = m ((c : Thread nD τ).loc main_arg10) := (st11_main_arg10 m ρ c).trans (at10_main_arg10 m ρ c)
theorem at1_main_arg11 (c : Dev nD) : W1 m ρ c (Proc.devRef .tc main_arg11) = m ((c : Thread nD τ).loc main_arg11) := (st1_main_arg11 m ρ c).trans (rfl)
theorem at2_main_arg11 (c : Dev nD) : W2 m ρ c (Proc.devRef .tc main_arg11) = m ((c : Thread nD τ).loc main_arg11) := (st2_main_arg11 m ρ c).trans (at1_main_arg11 m ρ c)
theorem at3_main_arg11 (c : Dev nD) : W3 m ρ c (Proc.devRef .tc main_arg11) = m ((c : Thread nD τ).loc main_arg11) := (st3_main_arg11 m ρ c).trans (at2_main_arg11 m ρ c)
theorem at4_main_arg11 (c : Dev nD) : W4 m ρ c (Proc.devRef .tc main_arg11) = m ((c : Thread nD τ).loc main_arg11) := (st4_main_arg11 m ρ c).trans (at3_main_arg11 m ρ c)
theorem at5_main_arg11 (c : Dev nD) : W5 m ρ c (Proc.devRef .tc main_arg11) = m ((c : Thread nD τ).loc main_arg11) := (st5_main_arg11 m ρ c).trans (at4_main_arg11 m ρ c)
theorem at6_main_arg11 (c : Dev nD) : W6 m ρ c (Proc.devRef .tc main_arg11) = m ((c : Thread nD τ).loc main_arg11) := (st6_main_arg11 m ρ c).trans (at5_main_arg11 m ρ c)
theorem at7_main_arg11 (c : Dev nD) : W7 m ρ c (Proc.devRef .tc main_arg11) = m ((c : Thread nD τ).loc main_arg11) := (st7_main_arg11 m ρ c).trans (at6_main_arg11 m ρ c)
theorem at8_main_arg11 (c : Dev nD) : W8 m ρ c (Proc.devRef .tc main_arg11) = m ((c : Thread nD τ).loc main_arg11) := (st8_main_arg11 m ρ c).trans (at7_main_arg11 m ρ c)
theorem at9_main_arg11 (c : Dev nD) : W9 m ρ c (Proc.devRef .tc main_arg11) = m ((c : Thread nD τ).loc main_arg11) := (st9_main_arg11 m ρ c).trans (at8_main_arg11 m ρ c)
theorem at10_main_arg11 (c : Dev nD) : W10 m ρ c (Proc.devRef .tc main_arg11) = m ((c : Thread nD τ).loc main_arg11) := (st10_main_arg11 m ρ c).trans (at9_main_arg11 m ρ c)
theorem at11_main_arg11 (c : Dev nD) : W11 m ρ c (Proc.devRef .tc main_arg11) = m ((c : Thread nD τ).loc main_arg11) := (st11_main_arg11 m ρ c).trans (at10_main_arg11 m ρ c)
theorem at4_main_v1 (c : Dev nD) : W4 m ρ c (Proc.devRef .tc main_v1) = W3 m ρ c (Proc.devRef .tc main_v1) := st4_main_v1 m ρ c
theorem at5_main_v1 (c : Dev nD) : W5 m ρ c (Proc.devRef .tc main_v1) = W3 m ρ c (Proc.devRef .tc main_v1) := (st5_main_v1 m ρ c).trans (at4_main_v1 m ρ c)
theorem at6_main_v1 (c : Dev nD) : W6 m ρ c (Proc.devRef .tc main_v1) = W3 m ρ c (Proc.devRef .tc main_v1) := (st6_main_v1 m ρ c).trans (at5_main_v1 m ρ c)
theorem at7_main_v1 (c : Dev nD) : W7 m ρ c (Proc.devRef .tc main_v1) = W3 m ρ c (Proc.devRef .tc main_v1) := (st7_main_v1 m ρ c).trans (at6_main_v1 m ρ c)
theorem at8_main_v1 (c : Dev nD) : W8 m ρ c (Proc.devRef .tc main_v1) = W3 m ρ c (Proc.devRef .tc main_v1) := (st8_main_v1 m ρ c).trans (at7_main_v1 m ρ c)
theorem at4_main_v3 (c : Dev nD) : W4 m ρ c (Proc.devRef .tc main_v3) = W3 m ρ c (Proc.devRef .tc main_v3) := st4_main_v3 m ρ c
theorem at5_main_v3 (c : Dev nD) : W5 m ρ c (Proc.devRef .tc main_v3) = W3 m ρ c (Proc.devRef .tc main_v3) := (st5_main_v3 m ρ c).trans (at4_main_v3 m ρ c)
theorem at6_main_v3 (c : Dev nD) : W6 m ρ c (Proc.devRef .tc main_v3) = W3 m ρ c (Proc.devRef .tc main_v3) := (st6_main_v3 m ρ c).trans (at5_main_v3 m ρ c)
theorem at7_main_v3 (c : Dev nD) : W7 m ρ c (Proc.devRef .tc main_v3) = W3 m ρ c (Proc.devRef .tc main_v3) := (st7_main_v3 m ρ c).trans (at6_main_v3 m ρ c)
theorem at8_main_v3 (c : Dev nD) : W8 m ρ c (Proc.devRef .tc main_v3) = W3 m ρ c (Proc.devRef .tc main_v3) := (st8_main_v3 m ρ c).trans (at7_main_v3 m ρ c)
theorem at4_main_v15 (c : Dev nD) : W4 m ρ c (Proc.devRef .tc main_v15) = W3 m ρ c (Proc.devRef .tc main_v15) := st4_main_v15 m ρ c
theorem at5_main_v15 (c : Dev nD) : W5 m ρ c (Proc.devRef .tc main_v15) = W3 m ρ c (Proc.devRef .tc main_v15) := (st5_main_v15 m ρ c).trans (at4_main_v15 m ρ c)
theorem at6_main_v15 (c : Dev nD) : W6 m ρ c (Proc.devRef .tc main_v15) = W3 m ρ c (Proc.devRef .tc main_v15) := (st6_main_v15 m ρ c).trans (at5_main_v15 m ρ c)
theorem at7_main_v15 (c : Dev nD) : W7 m ρ c (Proc.devRef .tc main_v15) = W3 m ρ c (Proc.devRef .tc main_v15) := (st7_main_v15 m ρ c).trans (at6_main_v15 m ρ c)
theorem at8_main_v15 (c : Dev nD) : W8 m ρ c (Proc.devRef .tc main_v15) = W3 m ρ c (Proc.devRef .tc main_v15) := (st8_main_v15 m ρ c).trans (at7_main_v15 m ρ c)
theorem at5_main_v16 (c : Dev nD) : W5 m ρ c (Proc.devRef .tc main_v16) = W4 m ρ c (Proc.devRef .tc main_v16) := st5_main_v16 m ρ c
theorem at7_main_v35 (c : Dev nD) : W7 m ρ c (Proc.devRef .tc main_v35) = W6 m ρ c (Proc.devRef .tc main_v35) := st7_main_v35 m ρ c
theorem at9_main_v54 (c : Dev nD) : W9 m ρ c (Proc.devRef .tc main_v54) = W8 m ρ c (Proc.devRef .tc main_v54) := st9_main_v54 m ρ c

end Cert.KernelIdeal.Carry

end
-- ==== Proof.DenseSpec.lean ====
/-
  The three dense stages of the model, index by index on the extended reals.

  Every stage is row-local: row `r` of the result depends on row `r` of the row-indexed operands and on
  the whole weight matrices and bias vectors. Written over a row count `n`, the same function describes
  a block of rows and the whole array.

  * the node encoder:     max (Σₖ x[r,k]·W[k,j] + b[j]) 0
  * one SAGE combination: max ((Σₖ a[r,k]·Wl[k,j] + bl[j]) + Σₖ h[r,k]·Wr[k,j]) 0
  * the pair predictor:   Σⱼ (max (Σₖ z[r,k]·W1[k,j] + b1[j]) 0)·W2[j,c] + b2[c]

  The zero of the positive part is kept as the float word it is printed with.
-/
import Idealize.ShloMosaic.PureOps.Ideal
import Idealize.ShloMosaic.PureOps.Ideal.Laws
import Idealize.ShloMosaic.Lib.ValueIdx

noncomputable section

open scoped BigOperators

namespace Cert.Dense

open Idealize.ShloMosaic Idealize.ShloMosaic.ValueIdx

/-- The float word of zero, read at the exact instance. -/
abbrev zeroWord : EReal := Ideal.ofBits .f32 0x00000000#32

/-- Entry `(r, j)` of the encoder: the positive part of row `r` of `x` against column `j` of `W`, plus `b j`. -/
def encAt {n : Nat} (x : (⟨2, ![n, 128]⟩ : Shape).Idx → EReal) (W : (⟨2, ![128, 64]⟩ : Shape).Idx → EReal)
    (b : (⟨1, ![64]⟩ : Shape).Idx → EReal) (r : Fin n) (j : Fin 64) : EReal :=
  max ((∑ k : Fin 128, x (ix2 r k) * W (ix2 k j)) + b (ix1 j)) zeroWord

/-- Entry `(r, j)` of a SAGE combination of the aggregated neighbours `a` and the node's own features `h`. -/
def sageAt {n : Nat} (a h : (⟨2, ![n, 64]⟩ : Shape).Idx → EReal) (Wl : (⟨2, ![64, 64]⟩ : Shape).Idx → EReal)
    (bl : (⟨1, ![64]⟩ : Shape).Idx → EReal) (Wr : (⟨2, ![64, 64]⟩ : Shape).Idx → EReal) (r : Fin n) (j : Fin 64) : EReal :=
  max (((∑ k : Fin 64, a (ix2 r k) * Wl (ix2 k j)) + bl (ix1 j)) + (∑ k : Fin 64, h (ix2 r k) * Wr (ix2 k j))) zeroWord

/-- Entry `(r, c)` of the predictor: a hidden layer of width 64 with positive part, then one output column. -/
def predAt {n : Nat} (z : (⟨2, ![n, 128]⟩ : Shape).Idx → EReal) (W1 : (⟨2, ![128, 64]⟩ : Shape).Idx → EReal)
    (b1 : (⟨1, ![64]⟩ : Shape).Idx → EReal) (W2 : (⟨2, ![64, 1]⟩ : Shape).Idx → EReal)
    (b2 : (⟨1, ![1]⟩ : Shape).Idx → EReal) (r : Fin n) (c : Fin 1) : EReal :=
  (∑ j : Fin 64, encAt z W1 b1 r j * W2 (ix2 j c)) + b2 (ix1 c)

/-- The encoder's entry `(r, j)` reads row `r` of `x`, column `j` of `W` and entry `j` of `b`: operands that agree
    there give the same entry. -/
theorem encAt_congr {n n' : Nat} (x : (⟨2, ![n, 128]⟩ : Shape).Idx → EReal) (x' : (⟨2, ![n', 128]⟩ : Shape).Idx → EReal)
    (W W' : (⟨2, ![128, 64]⟩ : Shape).Idx → EReal) (b b' : (⟨1, ![64]⟩ : Shape).Idx → EReal)
    (r : Fin n) (r' : Fin n') (j j' : Fin 64)
    (hx : ∀ k : Fin 128, x (ix2 r k) = x' (ix2 r' k)) (hW : ∀ k : Fin 128, W (ix2 k j) = W' (ix2 k j'))
    (hb : b (ix1 j) = b' (ix1 j')) : encAt x W b r j = encAt x' W' b' r' j' := by
  unfold encAt
  have e : (∑ k : Fin 128, x (ix2 r k) * W (ix2 k j)) = ∑ k : Fin 128, x' (ix2 r' k) * W' (ix2 k j') :=
    Finset.sum_congr rfl fun k _ => by rw [hx k, hW k]
  rw [e, hb]

/-- A SAGE combination's entry `(r, j)` reads row `r` of `a` and of `h`, column `j` of the two weight matrices and
    entry `j` of the bias. -/
theorem sageAt_congr {n n' : Nat} (a h : (⟨2, ![n, 64]⟩ : Shape).Idx → EReal) (a' h' : (⟨2, ![n', 64]⟩ : Shape).Idx → EReal)
    (Wl Wl' : (⟨2, ![64, 64]⟩ : Shape).Idx → EReal) (bl bl' : (⟨1, ![64]⟩ : Shape).Idx → EReal)
    (Wr Wr' : (⟨2, ![64, 64]⟩ : Shape).Idx → EReal) (r : Fin n) (r' : Fin n') (j j' : Fin 64)
    (ha : ∀ k : Fin 64, a (ix2 r k) = a' (ix2 r' k)) (hh : ∀ k : Fin 64, h (ix2 r k) = h' (ix2 r' k))
    (hWl : ∀ k : Fin 64, Wl (ix2 k j) = Wl' (ix2 k j')) (hbl : bl (ix1 j) = bl' (ix1 j'))
    (hWr : ∀ k : Fin 64, Wr (ix2 k j) = Wr' (ix2 k j')) :
    sageAt a h Wl bl Wr r j = sageAt a' h' Wl' bl' Wr' r' j' := by
  unfold sageAt
  have ea : (∑ k : Fin 64, a (ix2 r k) * Wl (ix2 k j)) = ∑ k : Fin 64, a' (ix2 r' k) * Wl' (ix2 k j') :=
    Finset.sum_congr rfl fun k _ => by rw [ha k, hWl k]
  have eh : (∑ k : Fin 64, h (ix2 r k) * Wr (ix2 k j)) = ∑ k : Fin 64, h' (ix2 r' k) * Wr' (ix2 k j') :=
    Finset.sum_congr rfl fun k _ => by rw [hh k, hWr k]
  rw [ea, eh, hbl]

/-- The predictor's entry `(r, c)` reads row `r` of `z`, all of the hidden layer's weights and bias, column `c` of
    `W2` and entry `c` of `b2`. -/
theorem predAt_congr {n n' : Nat} (z : (⟨2, ![n, 128]⟩ : Shape).Idx → EReal) (z' : (⟨2, ![n', 128]⟩ : Shape).Idx → EReal)
    (W1 W1' : (⟨2, ![128, 64]⟩ : Shape).Idx → EReal) (b1 b1' : (⟨1, ![64]⟩ : Shape).Idx → EReal)
    (W2 W2' : (⟨2, ![64, 1]⟩ : Shape).Idx → EReal) (b2 b2' : (⟨1, ![1]⟩ : Shape).Idx → EReal)
    (r : Fin n) (r' : Fin n') (c c' : Fin 1)
    (hz : ∀ k : Fin 128, z (ix2 r k) = z' (ix2 r' k)) (hW1 : ∀ (k : Fin 128) (j : Fin 64), W1 (ix2 k j) = W1' (ix2 k j))
    (hb1 : ∀ j : Fin 64, b1 (ix1 j) = b1' (ix1 j)) (hW2 : ∀ j : Fin 64, W2 (ix2 j c) = W2' (ix2 j c'))
    (hb2 : b2 (ix1 c) = b2' (ix1 c')) : predAt z W1 b1 W2 b2 r c = predAt z' W1' b1' W2' b2' r' c' := by
  unfold predAt
  have e : (∑ j : Fin 64, encAt z W1 b1 r j * W2 (ix2 j c)) = ∑ j : Fin 64, encAt z' W1' b1' r' j * W2' (ix2 j c') :=
    Finset.sum_congr rfl fun j _ => by
      rw [encAt_congr z z' W1 W1' b1 b1' r r' j j hz (fun k => hW1 k j) (hb1 j), hW2 j]
  rw [e, hb2]

end Cert.Dense

end
-- ==== Proof.MatProd.lean ====
/-
  The kernels' three matrix products read at an index, at the exact instance.

  Each `tpu.matmul` of the five bodies contracts the last axis of its left factor with the first axis of its
  right factor and accumulates into a zero splat, so entry `(p, q)` of its result is Σₖ l[p,k]·r[k,q]. The
  contraction's index set is identified with its one coordinate and the two index maps are read axis by axis.
-/
import proofs.«139122_j87677462380867_1_alg».proof.Proof.Gen.KernelIdeal
import Idealize.ShloMosaic.PureOps.Ideal.Laws
import Idealize.ShloMosaic.Lib.ValueIdx

noncomputable section

open scoped BigOperators

namespace Cert.KernelIdeal.MatProd

open Cert.KernelIdeal Idealize.ShloMosaic Idealize.ShloMosaic.ValueIdx

/-! ### `dot_S10000x128_S128x64_S10000x64_1_0_0_1_n_n`: [10000, 128] · [128, 64] -/

theorem lhsA_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsA_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsA_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsA_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Into a zero accumulator, entry `(p, q)` of the product is the sum over the one contracted axis of row `p` of the
    left factor against column `q` of the right one. -/
theorem mmA_apply {φ₁ φ₂ : FTy} (l : FVec Ideal S10000x128 φ₁) (r : FVec Ideal S128x64 φ₂) (p : Fin 10000) (q : Fin 64) :
    FloatOps.matmul dot_S10000x128_S128x64_S10000x64_1_0_0_1_n_n none l r (constant S10000x64 .f32 0x00000000#32) (ix2 p q)
      = ∑ k : Fin 128, l (ix2 p k) * r (ix2 k q) := by
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### `dot_S10000x64_S64x64_S10000x64_1_0_0_1_n_n`: [10000, 64] · [64, 64] -/

theorem lhsB_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsB_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsB_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsB_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into a zero accumulator, entry `(p, q)` of the product is the sum over the one contracted axis of row `p` of the
    left factor against column `q` of the right one. -/
theorem mmB_apply {φ₁ φ₂ : FTy} (l : FVec Ideal S10000x64 φ₁) (r : FVec Ideal S64x64 φ₂) (p : Fin 10000) (q : Fin 64) :
    FloatOps.matmul dot_S10000x64_S64x64_S10000x64_1_0_0_1_n_n none l r (constant S10000x64 .f32 0x00000000#32) (ix2 p q)
      = ∑ k : Fin 64, l (ix2 p k) * r (ix2 k q) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ### `dot_S10000x64_S64x1_S10000x1_1_0_0_1_n_n`: [10000, 64] · [64, 1] -/

theorem lhsC_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhsC_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhsC_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhsC_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Into a zero accumulator, entry `(p, q)` of the product is the sum over the one contracted axis of row `p` of the
    left factor against column `q` of the right one. -/
theorem mmC_apply {φ₁ φ₂ : FTy} (l : FVec Ideal S10000x64 φ₁) (r : FVec Ideal S64x1 φ₂) (p : Fin 10000) (q : Fin 1) :
    FloatOps.matmul dot_S10000x64_S64x1_S10000x1_1_0_0_1_n_n none l r (constant S10000x1 .f32 0x00000000#32) (ix2 p q)
      = ∑ k : Fin 64, l (ix2 p k) * r (ix2 k q) := by
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx (ix2 p q) ((ValueIdx.contrEquiv1 dot_S10000x64_S64x1_S10000x1_1_0_0_1_n_n 64 rfl rfl).symm k) = ix2 p k := funext fun a => Fin.ext (by
    match a with
    | ⟨0, _⟩ => exact lhsC_0 _ _
    | ⟨1, _⟩ => exact (lhsC_1 _ _).trans hk)
  have er : dot_S10000x64_S64x1_S10000x1_1_0_0_1_n_n.rhsIdx (ix2 p q) ((ValueIdx.contrEquiv1 dot_S10000x64_S64x1_S10000x1_1_0_0_1_n_n 64 rfl rfl).symm k) = ix2 k q := funext fun a => Fin.ext (by
    match a with
    | ⟨0, _⟩ => exact (rhsC_0 _ _).trans hk
    | ⟨1, _⟩ => exact rhsC_1 _ _)
  rw [el, er]

/-- The same, over the vector operation's own name (the bodies print `matmul`). -/
theorem mmA_at {φ₁ φ₂ : FTy} (l : FVec Ideal S10000x128 φ₁) (r : FVec Ideal S128x64 φ₂) (p : Fin 10000) (q : Fin 64) :
    matmul dot_S10000x128_S128x64_S10000x64_1_0_0_1_n_n none l r (constant S10000x64 .f32 0x00000000#32) (ix2 p q)
      = ∑ k : Fin 128, l (ix2 p k) * r (ix2 k q) := mmA_apply l r p q

/-- The same, over the vector operation's own name (the bodies print `matmul`). -/
theorem mmB_at {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := mmB_apply l r p q

/-- The same, over the vector operation's own name (the bodies print `matmul`). -/
theorem mmC_at {φ₁ φ₂ : FTy} (l : FVec Ideal S10000x64 φ₁) (r : FVec Ideal S64x1 φ₂) (p : Fin 10000) (q : Fin 1) :
    matmul dot_S10000x64_S64x1_S10000x1_1_0_0_1_n_n none l r (constant S10000x1 .f32 0x00000000#32) (ix2 p q)
      = ∑ k : Fin 64, l (ix2 p k) * r (ix2 k q) := mmC_apply l r p q

end Cert.KernelIdeal.MatProd

end
-- ==== Proof.EncRegion.lean ====
/-
  The first pallas_call (the node encoder), read as a value.

  Its grid has ten points; point `t` loads rows `10000·t … 10000·t + 9999` of `x`, the whole weight matrix and
  the whole bias vector, and stores the positive part of `x·W + b` on those rows. Stated at any contents `V`
  the region may be entered with, the array it leaves is

      out[r, j] = max (Σₖ x[r,k]·W[k,j] + b[j]) 0        for all 100000 rows,

  because each block written back is that function restricted to its rows and the ten blocks cover the array.
-/
import proofs.«139122_j87677462380867_1_alg».proof.Proof.Gen.KernelIdeal.Frame
import proofs.«139122_j87677462380867_1_alg».proof.Proof.DenseSpec
import proofs.«139122_j87677462380867_1_alg».proof.Proof.MatProd
import Idealize.ShloMosaic.Lib.Pipeline.Value
import Idealize.ShloMosaic.Lib.ValueLayout
import Idealize.ShloMosaic.Lib.ValueIdx

set_option maxRecDepth 16384

noncomputable section

namespace Cert.KernelIdeal.EncRegion

open Cert.KernelIdeal Cert.KernelIdeal.Gen Cert.KernelIdeal.MatProd Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A rectangle at offset zero on both axes. -/
theorem hz2 : (![0, 0] : Fin 2 → Nat) = fun _ => 0 := funext fun a => by fin_cases a <;> rfl
/-- A rectangle at offset zero on its one axis. -/
theorem hz1 : (![0] : Fin 1 → Nat) = fun _ => 0 := funext fun a => by fin_cases a <;> rfl

/-- The body's stored value at entry `(p, q)` of the block is the encoder's entry of the three loaded blocks: the
    product into a zero accumulator is the sum over the contracted axis, the bias vector is re-laid as a row and
    repeated down the rows, the format changes are the identity, and the positive part is taken against the zero word. -/
theorem pay0_at (x0 : Vec Ideal S10000x128 .f32) (x1 : Vec Ideal S128x64 .f32) (x2 : Vec Ideal S64 .f32) (p : Fin 10000) (q : Fin 64) :
    k0_pay1 (F := Ideal) x0 x1 x2 (ix2 p q) = encAt (n := 10000) x0 x1 x2 p q := by
  unfold k0_pay1 encAt
  rw [maximumf_apply, addf_apply, broadcast_apply, mmA_at, broadcastTo_1b_ab_apply, shapeCast_a_1a_apply]
  rfl

/-- The index maps over the ten grid points: the rows block of `x` moves with the output's, every other block
    index is zero. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 9 :=
  (by decide +kernel : ∀ t : Fin grid0.N, _)

/-- Every one of the ten row blocks of the output is some point's. -/
theorem idx_onto : ∀ (q0 : Fin 10), ∃ t : Fin cfg0.N, win0_3.index t = ![q0.val, 0] :=
  (by decide +kernel : ∀ (q0 : Fin 10), ∃ t : Fin grid0.N, win0_3.index t = ![q0.val, 0])

/-- The encoder's array of the region's entry contents. -/
def encArr (c : Dev nD) : S100000x64.Idx → EReal :=
  fun i => encAt (n := 100000) (V c main_arg0) (V c main_arg3) (V c main_arg4) (i 0) (i 1)

/-- What point `t` writes back is block `t` of the encoder's array: entry `(p, q)` of the block is row
    `index·10000 + p`, column `q` of the array, and it reads that row of `x`, all of `W` and all of `b`. -/
theorem flushed_eq (c : Dev nD) (t : Fin cfg0.N) :
    (dat0 V c).flushed 3 t = ((cfg0.win 3).blk t).view.read (Elt Ideal) (encArr V c) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x64) hz2, View.ld_unit_zero (S := S64) hz1]
  funext y
  show k0_pay1 (iblk0 V c 0 t) (iblk0 V c 1 t) (iblk0 V c 2 t) y = encArr V c (((cfg0.win 3).blk t).view.emb y)
  obtain ⟨e0, e1, e2, e3, e4, e5, e6⟩ := idx_facts t
  refine (congrArg (k0_pay1 (iblk0 V c 0 t) (iblk0 V c 1 t) (iblk0 V c 2 t)) (eq_ix2 (n0 := 10000) (n1 := 64) y)).trans ?_
  refine (pay0_at (iblk0 V c 0 t) (iblk0 V c 1 t) (iblk0 V c 2 t) (y 0) (y 1)).trans ?_
  unfold encArr
  refine encAt_congr (iblk0 V c 0 t) (V c main_arg0) (iblk0 V c 1 t) (V c main_arg3) (iblk0 V c 2 t) (V c main_arg4)
    (y 0) ((((cfg0.win 3).blk t).view.emb y) 0) (y 1) ((((cfg0.win 3).blk t).view.emb y) 1) (fun k => ?_) (fun k => ?_) ?_
  · show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 10000 + 1 * (y 0).val = win0_3.index t (0 : Fin 2) * 10000 + 1 * (y 0).val; omega
    | ⟨1, _⟩ => show win0_0.index t (1 : Fin 2) * 128 + 1 * k.val = k.val; omega
  · show V c main_arg3 (((cfg0.win 1).blk t).view.emb (ix2 k (y 1))) = V c main_arg3 (ix2 k ((((cfg0.win 3).blk t).view.emb y) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (y 1).val = win0_3.index t (1 : Fin 2) * 64 + 1 * (y 1).val; omega
  · show V c main_arg4 (((cfg0.win 2).blk t).view.emb (ix1 (y 1))) = V c main_arg4 (ix1 ((((cfg0.win 3).blk t).view.emb y) 1))
    refine congrArg (V c main_arg4) (funext fun a => Fin.ext ?_)
    match a with
    | ⟨0, _⟩ => show win0_2.index t (0 : Fin 1) * 64 + 1 * (y 1).val = win0_3.index t (1 : Fin 2) * 64 + 1 * (y 1).val; omega

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16).slice (win0_3.rect t)).set ↔ _
  rw [View.set_slice_whole, Rect.mem_set_unit]
  exact Iff.rfl

/-- The ten row blocks cover the array: row `r` is in the block of the point whose block index is `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region the output array is the encoder's array of the region's entry contents. -/
theorem final (c : Dev nD) : (dat0 V c).arrAt 3 cfg0.N = encArr V c :=
  (dat0 V c).arrAt_eq_of_cover 3 (encArr V c) (fun t _ => flushed_eq V c t) cover

end Cert.KernelIdeal.EncRegion

end
-- ==== Proof.RefStages.lean ====
/-
  The reference's five dense stages, index by index.

  The reference computes each dense stage as `dot_general`, a bias vector re-laid as a row and repeated down the
  rows, an addition and (except in the last layer) a maximum with a zero splat. Read at an index through the
  generated one-operation lemmas, each is the corresponding function of Proof/DenseSpec.lean of its operand
  stages: the node encoder of `x`; each SAGE combination of the layer's aggregated features and the previous
  node features; the predictor's hidden layer and its output column of the concatenated pair features.
-/
import proofs.«139122_j87677462380867_1_alg».proof.Proof.RefRead
import proofs.«139122_j87677462380867_1_alg».proof.Proof.DenseSpec
import Idealize.ShloMosaic.Lib.ValueIdx

set_option maxRecDepth 16384

noncomputable section

open scoped BigOperators

namespace Cert.ReferenceIdeal.Stages

open Cert.ReferenceIdeal Cert.ReferenceIdeal.Read Cert.Dense
open Idealize.ShloMosaic Idealize.ShloMosaic.ValueIdx

/-- The node encoder: the positive part of `x·enc_W + enc_b`. -/
theorem enc_stage (x0 : (⟨S100000x128, .f32⟩ : BufTy).Contents (Elt Ideal)) (x3 : (⟨S128x64, .f32⟩ : BufTy).Contents (Elt Ideal)) (x4 : (⟨S64, .f32⟩ : BufTy).Contents (Elt Ideal)) :
    val_main_v20 (F := Ideal) x0 x3 x4 = fun i => encAt (n := 100000) (x0) (x3) (x4) (i 0) (i 1) := by
  funext i
  rw [val_main_v20_apply, val_main_v19_apply, val_main_v16_apply, val_main_v18_apply, val_main_v17_apply,
    val_main_call1_v0_apply, val_main_call1_cst_apply]
  unfold encAt
  have el : ∀ k : Fin 128, lidx_main_v16 i k = ix2 (i 0) k := fun k => funext fun a => by match a with | ⟨0, _⟩ => rfl | ⟨1, _⟩ => rfl
  have er : ∀ k : Fin 128, ridx_main_v16 i k = ix2 k (i 1) := fun k => funext fun a => by match a with | ⟨0, _⟩ => rfl | ⟨1, _⟩ => rfl
  have eb : idx_main_v17 (idx_main_v18 i) = ix1 (i 1) := funext fun a => by match a with | ⟨0, _⟩ => rfl
  simp only [el, er, eb]
  rfl

/-- SAGE combination 1: the positive part of `(a·Wl + bl) + h·Wr`, where `a` is the layer's aggregated neighbour
    features, `h` the previous node features, and `Wl`, `bl`, `Wr` slice 0 of the stacked parameters. -/
theorem sage_stage1 (x0 : (⟨S100000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) :
    val_main_v45 (F := Ideal) x0 x1 x3 x4 x5 x6 x7 = fun i => sageAt (n := 100000) (val_main_v32 (F := Ideal) x0 x1 x3 x4) (val_main_v20 (F := Ideal) x0 x3 x4) (val_main_v34 (F := Ideal) x5) (val_main_v37 (F := Ideal) x6) (val_main_v42 (F := Ideal) x7) (i 0) (i 1) := by
  funext i
  rw [val_main_v45_apply, val_main_v44_apply, val_main_v40_apply, val_main_v35_apply, val_main_v39_apply,
    val_main_v38_apply, val_main_v43_apply, val_main_call2_v0_apply, val_main_call2_cst_apply]
  unfold sageAt
  have ela : ∀ k : Fin 64, lidx_main_v35 i k = ix2 (i 0) k := fun k => funext fun a => by match a with | ⟨0, _⟩ => rfl | ⟨1, _⟩ => rfl
  have era : ∀ k : Fin 64, ridx_main_v35 i k = ix2 k (i 1) := fun k => funext fun a => by match a with | ⟨0, _⟩ => rfl | ⟨1, _⟩ => rfl
  have elh : ∀ k : Fin 64, lidx_main_v43 i k = ix2 (i 0) k := fun k => funext fun a => by match a with | ⟨0, _⟩ => rfl | ⟨1, _⟩ => rfl
  have erh : ∀ k : Fin 64, ridx_main_v43 i k = ix2 k (i 1) := fun k => funext fun a => by match a with | ⟨0, _⟩ => rfl | ⟨1, _⟩ => rfl
  have eb : idx_main_v38 (idx_main_v39 i) = ix1 (i 1) := funext fun a => by match a with | ⟨0, _⟩ => rfl
  simp only [ela, era, elh, erh, eb]
  rfl

/-- SAGE combination 2: the positive part of `(a·Wl + bl) + h·Wr`, where `a` is the layer's aggregated neighbour
    features, `h` the previous node features, and `Wl`, `bl`, `Wr` slice 1 of the stacked parameters. -/
theorem sage_stage2 (x0 : (⟨S100000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) :
    val_main_v70 (F := Ideal) x0 x1 x3 x4 x5 x6 x7 = fun i => sageAt (n := 100000) (val_main_v57 (F := Ideal) x0 x1 x3 x4 x5 x6 x7) (val_main_v45 (F := Ideal) x0 x1 x3 x4 x5 x6 x7) (val_main_v59 (F := Ideal) x5) (val_main_v62 (F := Ideal) x6) (val_main_v67 (F := Ideal) x7) (i 0) (i 1) := by
  funext i
  rw [val_main_v70_apply, val_main_v69_apply, val_main_v65_apply, val_main_v60_apply, val_main_v64_apply,
    val_main_v63_apply, val_main_v68_apply, val_main_call3_v0_apply, val_main_call3_cst_apply]
  unfold sageAt
  have ela : ∀ k : Fin 64, lidx_main_v60 i k = ix2 (i 0) k := fun k => funext fun a => by match a with | ⟨0, _⟩ => rfl | ⟨1, _⟩ => rfl
  have era : ∀ k : Fin 64, ridx_main_v60 i k = ix2 k (i 1) := fun k => funext fun a => by match a with | ⟨0, _⟩ => rfl | ⟨1, _⟩ => rfl
  have elh : ∀ k : Fin 64, lidx_main_v68 i k = ix2 (i 0) k := fun k => funext fun a => by match a with | ⟨0, _⟩ => rfl | ⟨1, _⟩ => rfl
  have erh : ∀ k : Fin 64, ridx_main_v68 i k = ix2 k (i 1) := fun k => funext fun a => by match a with | ⟨0, _⟩ => rfl | ⟨1, _⟩ => rfl
  have eb : idx_main_v63 (idx_main_v64 i) = ix1 (i 1) := funext fun a => by match a with | ⟨0, _⟩ => rfl
  simp only [ela, era, elh, erh, eb]
  rfl

/-- SAGE combination 3: the positive part of `(a·Wl + bl) + h·Wr`, where `a` is the layer's aggregated neighbour
    features, `h` the previous node features, and `Wl`, `bl`, `Wr` slice 2 of the stacked parameters. -/
theorem sage_stage3 (x0 : (⟨S100000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) :
    val_main_v95 (F := Ideal) x0 x1 x3 x4 x5 x6 x7 = fun i => sageAt (n := 100000) (val_main_v82 (F := Ideal) x0 x1 x3 x4 x5 x6 x7) (val_main_v70 (F := Ideal) x0 x1 x3 x4 x5 x6 x7) (val_main_v84 (F := Ideal) x5) (val_main_v87 (F := Ideal) x6) (val_main_v92 (F := Ideal) x7) (i 0) (i 1) := by
  funext i
  rw [val_main_v95_apply, val_main_v94_apply, val_main_v90_apply, val_main_v85_apply, val_main_v89_apply,
    val_main_v88_apply, val_main_v93_apply, val_main_call4_v0_apply, val_main_call4_cst_apply]
  unfold sageAt
  have ela : ∀ k : Fin 64, lidx_main_v85 i k = ix2 (i 0) k := fun k => funext fun a => by match a with | ⟨0, _⟩ => rfl | ⟨1, _⟩ => rfl
  have era : ∀ k : Fin 64, ridx_main_v85 i k = ix2 k (i 1) := fun k => funext fun a => by match a with | ⟨0, _⟩ => rfl | ⟨1, _⟩ => rfl
  have elh : ∀ k : Fin 64, lidx_main_v93 i k = ix2 (i 0) k := fun k => funext fun a => by match a with | ⟨0, _⟩ => rfl | ⟨1, _⟩ => rfl
  have erh : ∀ k : Fin 64, ridx_main_v93 i k = ix2 k (i 1) := fun k => funext fun a => by match a with | ⟨0, _⟩ => rfl | ⟨1, _⟩ => rfl
  have eb : idx_main_v88 (idx_main_v89 i) = ix1 (i 1) := funext fun a => by match a with | ⟨0, _⟩ => rfl
  simp only [ela, era, elh, erh, eb]
  rfl

/-- The predictor's hidden layer: the positive part of `z·W1 + b1` on the concatenated pair features `z`. -/
theorem hidden_stage (x0 : (⟨S100000x128, .f32⟩ : BufTy).Contents (Elt Ideal)) (x1 : (⟨S2x1250000, .i32⟩ : BufTy).Contents (Elt Ideal)) (x2 : (⟨S200000x2, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S128x64, .f32⟩ : BufTy).Contents (Elt Ideal)) (x9 : (⟨S64, .f32⟩ : BufTy).Contents (Elt Ideal)) :
    val_main_v119 (F := Ideal) x0 x1 x2 x3 x4 x5 x6 x7 x8 x9 = fun i => encAt (n := 200000) (val_main_v114 (F := Ideal) x0 x1 x2 x3 x4 x5 x6 x7) (x8) (x9) (i 0) (i 1) := by
  funext i
  rw [val_main_v119_apply, val_main_v118_apply, val_main_v115_apply, val_main_v117_apply, val_main_v116_apply,
    val_main_call5_v0_apply, val_main_call5_cst_apply]
  unfold encAt
  have el : ∀ k : Fin 128, lidx_main_v115 i k = ix2 (i 0) k := fun k => funext fun a => by match a with | ⟨0, _⟩ => rfl | ⟨1, _⟩ => rfl
  have er : ∀ k : Fin 128, ridx_main_v115 i k = ix2 k (i 1) := fun k => funext fun a => by match a with | ⟨0, _⟩ => rfl | ⟨1, _⟩ => rfl
  have eb : idx_main_v116 (idx_main_v117 i) = ix1 (i 1) := funext fun a => by match a with | ⟨0, _⟩ => rfl
  simp only [el, er, eb]
  rfl

/-- The predictor's output column: the hidden layer against `W2`, plus the one-entry bias. -/
theorem pred_stage (x0 : (⟨S100000x128, .f32⟩ : BufTy).Contents (Elt Ideal)) (x1 : (⟨S2x1250000, .i32⟩ : BufTy).Contents (Elt Ideal)) (x2 : (⟨S200000x2, .i32⟩ : BufTy).Contents (Elt Ideal)) (x3 : (⟨S128x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S128x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) :
    val_main_v123 (F := Ideal) x0 x1 x2 x3 x4 x5 x6 x7 x8 x9 x10 x11 = fun i => predAt (n := 200000) (val_main_v114 (F := Ideal) x0 x1 x2 x3 x4 x5 x6 x7) x8 x9 x10 x11 (i 0) (i 1) := by
  funext i
  rw [val_main_v123_apply, val_main_v120_apply, val_main_v122_apply, val_main_v121_apply, hidden_stage]
  unfold predAt
  have el : ∀ k : Fin 64, lidx_main_v120 i k = ix2 (i 0) k := fun k => funext fun a => by match a with | ⟨0, _⟩ => rfl | ⟨1, _⟩ => rfl
  have er : ∀ k : Fin 64, ridx_main_v120 i k = ix2 k (i 1) := fun k => funext fun a => by match a with | ⟨0, _⟩ => rfl | ⟨1, _⟩ => rfl
  have eb : idx_main_v121 (idx_main_v122 i) = ix1 (i 1) := funext fun a => by
    match a with
    | ⟨0, _⟩ => exact Fin.ext (by have h : (i 1).val < 1 := (i 1).isLt; show (0 : Nat) = (i 1).val; omega)
  simp only [el, er, eb]
  rfl

end Cert.ReferenceIdeal.Stages

end
-- ==== Proof.LibTypedRef.lean ====
/-
  A typed reference is a buffer together with the type its contents are read at, which is the buffer's own type.
  A value written through such a reference is carried to the buffer's type, and a value read through it is carried
  back.  The two transports are inverse to each other — for every typed reference, with nothing evaluated: the
  statement does not look up what the buffer's type is.

  Where a program's operations are spelt over typed references (the operations of a function the program calls,
  standing in the call's place), each result read back through the list of operations carries one such pair per
  operation, nested one inside the other.  Cancelling the pairs with these lemmas first leaves a term that can be
  rewritten and compared like that of any other list of operations.
-/
import Idealize.ShloMosaic.Lib.StableHlo

namespace Cert.Lib.TypedRef

open Idealize.ShloMosaic Idealize.ShloMosaic.StableHlo

variable {sig : RefSig} {Val : EltTy → Type} {T : BufTy}

/-- Contents carried to a typed reference's buffer type and back are the contents. -/
theorem ofBuf_toBuf (x : TRef sig T) (v : T.Contents Val) : x.ofBuf (x.toBuf v) = v := by
  show cast _ (cast _ v) = v
  rw [cast_cast, cast_eq]

/-- Buffer contents carried to a typed reference's value type and back are the buffer contents. -/
theorem toBuf_ofBuf (x : TRef sig T) (v : x.ref.ty.Contents Val) : x.toBuf (x.ofBuf v) = v := by
  show cast _ (cast _ v) = v
  rw [cast_cast, cast_eq]

end Cert.Lib.TypedRef
-- ==== Proof.KernelValue0.lean ====
/-
  The idealized kernel's buffers in the reference's terms, 1 of 5: up to the node encoder.

  Both programs are one chain: degrees and their inverses from the destination indices; the node encoder; three
  rounds of (gather the source nodes' features, add them up per destination, scale by the inverse degree, combine
  with the node's own features); two gathers and a concatenation for the pairs; the predictor; one column re-laid
  as a vector. The kernel computes the five dense stages in pallas_call regions and everything else on the host,
  in the reference's very operations. Walking the fold of buffer contents boundary by boundary, a host stretch's
  results are its operations applied to what the earlier boundary held — once the operands are identified with the
  reference's stages the two terms coincide —, and a region's output array is the dense function of its input
  arrays, which is the reference's stage of those operands.

  Here: the two index vectors and the inverse-degree column before the first region (the conversions that the
  inlined selection carries between a buffer's type and the same stated type are identities), and the encoder.
-/
import proofs.«139122_j87677462380867_1_alg».proof.Proof.Carry
import proofs.«139122_j87677462380867_1_alg».proof.Proof.EncRegion
import proofs.«139122_j87677462380867_1_alg».proof.Proof.RefStages
import proofs.«139122_j87677462380867_1_alg».proof.Proof.LibTypedRef
import Idealize.ShloMosaic.Lib.StableHlo.Run

set_option maxRecDepth 16384

noncomputable section

namespace Cert.KernelIdeal.KernelValue

open Cert.KernelIdeal Cert.KernelIdeal.Gen Cert.Dense
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The launch arguments on core `c` -/
abbrev A0 (c : Dev nD) : Buf (Elt Ideal) ((c : Thread nD τ).loc main_arg0) := m ((c : Thread nD τ).loc main_arg0)
abbrev A1 (c : Dev nD) : Buf (Elt Ideal) ((c : Thread nD τ).loc main_arg1) := m ((c : Thread nD τ).loc main_arg1)
abbrev A2 (c : Dev nD) : Buf (Elt Ideal) ((c : Thread nD τ).loc main_arg2) := m ((c : Thread nD τ).loc main_arg2)
abbrev A3 (c : Dev nD) : Buf (Elt Ideal) ((c : Thread nD τ).loc main_arg3) := m ((c : Thread nD τ).loc main_arg3)
abbrev A4 (c : Dev nD) : Buf (Elt Ideal) ((c : Thread nD τ).loc main_arg4) := m ((c : Thread nD τ).loc main_arg4)
abbrev A5 (c : Dev nD) : Buf (Elt Ideal) ((c : Thread nD τ).loc main_arg5) := m ((c : Thread nD τ).loc main_arg5)
abbrev A6 (c : Dev nD) : Buf (Elt Ideal) ((c : Thread nD τ).loc main_arg6) := m ((c : Thread nD τ).loc main_arg6)
abbrev A7 (c : Dev nD) : Buf (Elt Ideal) ((c : Thread nD τ).loc main_arg7) := m ((c : Thread nD τ).loc main_arg7)
abbrev A8 (c : Dev nD) : Buf (Elt Ideal) ((c : Thread nD τ).loc main_arg8) := m ((c : Thread nD τ).loc main_arg8)
abbrev A9 (c : Dev nD) : Buf (Elt Ideal) ((c : Thread nD τ).loc main_arg9) := m ((c : Thread nD τ).loc main_arg9)
abbrev A10 (c : Dev nD) : Buf (Elt Ideal) ((c : Thread nD τ).loc main_arg10) := m ((c : Thread nD τ).loc main_arg10)
abbrev A11 (c : Dev nD) : Buf (Elt Ideal) ((c : Thread nD τ).loc main_arg11) := m ((c : Thread nD τ).loc main_arg11)

/-! ## Conversions at a reference whose buffer type is the stated type -/

/-- Carrying contents between a buffer's type and the same type, stated, changes nothing. -/
theorem ofBuf_v9 (h1 h2 h3) (v : (⟨S100000, .i1⟩ : BufTy).Contents (Elt Ideal)) :
    (TRef.of (sig := sig) (T := ⟨S100000, .i1⟩) main_v9 h1 h2 h3).ofBuf v = v := cast_eq _ v
theorem ofBuf_v13 (h1 h2 h3) (v : (⟨S100000, .f32⟩ : BufTy).Contents (Elt Ideal)) :
    (TRef.of (sig := sig) (T := ⟨S100000, .f32⟩) main_v13 h1 h2 h3).ofBuf v = v := cast_eq _ v
theorem ofBuf_cst4 (h1 h2 h3) (v : (⟨S_, .f32⟩ : BufTy).Contents (Elt Ideal)) :
    (TRef.of (sig := sig) (T := ⟨S_, .f32⟩) main_cst_4 h1 h2 h3).ofBuf v = v := cast_eq _ v
theorem toBuf_v14 (h1 h2 h3) (v : (⟨S100000, .f32⟩ : BufTy).Contents (Elt Ideal)) :
    (TRef.of (sig := sig) (T := ⟨S100000, .f32⟩) main_v14 h1 h2 h3).toBuf v = v := cast_eq _ v

/-! ## Before the first region -/

/-- The source indices: row 0 of the edge list. -/
theorem v1_at3 (c : Dev nD) : W3 m ρ c (Proc.devRef .tc main_v1) = Cert.ReferenceIdeal.Read.val_main_v1 (F := Ideal) (A1 m c) := by
  dsimp only [W3, W2, W1, hostOps0, hostOps0_1, hostOps0_2]
  after_results_simp
  rfl

/-- The destination indices: row 1 of the edge list. -/
theorem v3_at3 (c : Dev nD) : W3 m ρ c (Proc.devRef .tc main_v3) = Cert.ReferenceIdeal.Read.val_main_v3 (F := Ideal) (A1 m c) := by
  dsimp only [W3, W2, W1, hostOps0, hostOps0_1, hostOps0_2]
  after_results_simp
  rfl

set_option maxHeartbeats 800000 in
/-- The inverse-degree column: one over the larger of the in-degree and one where the in-degree is positive, zero elsewhere, as a column. -/
theorem v15_at3 (c : Dev nD) : W3 m ρ c (Proc.devRef .tc main_v15) = Cert.ReferenceIdeal.Read.val_main_v15 (F := Ideal) (A1 m c) := by
  dsimp only [W3, W2, W1, hostOps0, hostOps0_1, hostOps0_2]
  after_results_simp
  simp only [ofBuf_v9, ofBuf_v13, ofBuf_cst4, toBuf_v14, Cert.Lib.TypedRef.ofBuf_toBuf, Cert.Lib.TypedRef.toBuf_ofBuf, id]
  rfl

/-! ## The node encoder -/

/-- After region 0 its output holds the reference's encoder stage of the launch arguments. -/
theorem v16_at4 (c : Dev nD) : W4 m ρ c (Proc.devRef .tc main_v16) = Cert.ReferenceIdeal.Read.val_main_v20 (F := Ideal) (A0 m c) (A3 m c) (A4 m c) := by
  refine (W4_arr m ρ c 3).trans ((EncRegion.final (V3 m ρ) c).trans ?_)
  rw [Cert.ReferenceIdeal.Stages.enc_stage]
  unfold EncRegion.encArr
  have e0 : V3 m ρ c main_arg0 = A0 m c := Carry.at3_main_arg0 m ρ c
  have e3 : V3 m ρ c main_arg3 = A3 m c := Carry.at3_main_arg3 m ρ c
  have e4 : V3 m ρ c main_arg4 = A4 m c := Carry.at3_main_arg4 m ρ c
  rw [e0, e3, e4]

end Cert.KernelIdeal.KernelValue

end
-- ==== Proof.SageRegion1.lean ====
/-
  The second pallas_call (SAGE combination 1 of 3), read as a value.

  Its grid has ten points; point `t` loads rows `10000·t … 10000·t + 9999` of the aggregated neighbour features
  `a` and of the nodes' own features `h`, the two whole 64×64 weight matrices and the bias vector, and stores on
  those rows the positive part of `(a·Wl + bl) + h·Wr`, grouped exactly so. Stated at any contents `V` the region
  may be entered with, the array it leaves is

      out[r, j] = max ((Σₖ a[r,k]·Wl[k,j] + bl[j]) + Σₖ h[r,k]·Wr[k,j]) 0      for all 100000 rows.
-/
import proofs.«139122_j87677462380867_1_alg».proof.Proof.Gen.KernelIdeal.Frame
import proofs.«139122_j87677462380867_1_alg».proof.Proof.DenseSpec
import proofs.«139122_j87677462380867_1_alg».proof.Proof.MatProd
import Idealize.ShloMosaic.Lib.Pipeline.Value
import Idealize.ShloMosaic.Lib.ValueLayout
import Idealize.ShloMosaic.Lib.ValueIdx

set_option maxRecDepth 16384

noncomputable section

namespace Cert.KernelIdeal.SageRegion1

open Cert.KernelIdeal Cert.KernelIdeal.Gen Cert.KernelIdeal.MatProd Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A rectangle at offset zero on both axes. -/
theorem hz2 : (![0, 0] : Fin 2 → Nat) = fun _ => 0 := funext fun a => by fin_cases a <;> rfl
/-- A rectangle at offset zero on its one axis. -/
theorem hz1 : (![0] : Fin 1 → Nat) = fun _ => 0 := funext fun a => by fin_cases a <;> rfl

/-- The body's stored value at entry `(p, q)` of the block is the SAGE combination's entry of the five loaded
    blocks: each product into a zero accumulator is the sum over the contracted axis, the bias vector is re-laid as
    a row and repeated down the rows, the casts to the same shape and the format changes are the identity, the two
    sums are added in the body's grouping, and the positive part is taken against the zero word. -/
theorem pay_at (a : Vec Ideal S10000x64 .f32) (wl : Vec Ideal S64x64 .f32) (h : Vec Ideal S10000x64 .f32)
    (wr : Vec Ideal S64x64 .f32) (bl : Vec Ideal S64 .f32) (p : Fin 10000) (q : Fin 64) :
    k1_pay1 (F := Ideal) a wl h wr bl (ix2 p q) = sageAt (n := 10000) a h wl bl wr p q := by
  unfold k1_pay1 sageAt
  simp only [shapeCast_self]
  rw [maximumf_apply, addf_apply, addf_apply, broadcast_apply, mmB_at, mmB_at, broadcastTo_1b_ab_apply, shapeCast_a_1a_apply]
  rfl

/-- The index maps over the ten grid points: the row blocks of `a` and of `h` move with the output's, every other
    block index is zero. -/
theorem idx_facts : ∀ t : Fin cfg1.N, win1_0.index t (0 : Fin 2) = win1_5.index t (0 : Fin 2)
    ∧ win1_1.index t (0 : Fin 2) = win1_5.index t (0 : Fin 2)
    ∧ win1_0.index t (1 : Fin 2) = 0 ∧ win1_1.index t (1 : Fin 2) = 0 ∧ win1_5.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 ∧ win1_5.index t (0 : Fin 2) ≤ 9 :=
  (by decide +kernel : ∀ t : Fin grid1.N, _)

/-- Every one of the ten row blocks of the output is some point's. -/
theorem idx_onto : ∀ (q0 : Fin 10), ∃ t : Fin cfg1.N, win1_5.index t = ![q0.val, 0] :=
  (by decide +kernel : ∀ (q0 : Fin 10), ∃ t : Fin grid1.N, win1_5.index t = ![q0.val, 0])

/-- The SAGE combination's array of the region's entry contents. -/
def sageArr (c : Dev nD) : S100000x64.Idx → EReal :=
  fun i => sageAt (n := 100000) (V c main_v28) (V c main_v16) (V c main_v30) (V c main_v32) (V c main_v34) (i 0) (i 1)

/-- What point `t` writes back is block `t` of that array: entry `(p, q)` of the block is row `index·10000 + p`,
    column `q` of the array, and it reads that row of `a` and of `h` and all of the weights and the bias. -/
theorem flushed_eq (c : Dev nD) (t : Fin cfg1.N) :
    (dat1 V c).flushed 5 t = ((cfg1.win 5).blk t).view.read (Elt Ideal) (sageArr V c) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  funext y
  show k1_pay1 (iblk1 V c 0 t) (iblk1 V c 2 t) (iblk1 V c 1 t) (iblk1 V c 4 t) (iblk1 V c 3 t) y
    = sageArr V c (((cfg1.win 5).blk t).view.emb y)
  obtain ⟨e0, e1, e2, e3, e4, e5, e6, e7, e8, e9, e10⟩ := idx_facts t
  refine (congrArg (k1_pay1 (iblk1 V c 0 t) (iblk1 V c 2 t) (iblk1 V c 1 t) (iblk1 V c 4 t) (iblk1 V c 3 t))
    (eq_ix2 (n0 := 10000) (n1 := 64) y)).trans ?_
  refine (pay_at (iblk1 V c 0 t) (iblk1 V c 2 t) (iblk1 V c 1 t) (iblk1 V c 4 t) (iblk1 V c 3 t) (y 0) (y 1)).trans ?_
  unfold sageArr
  refine sageAt_congr (iblk1 V c 0 t) (iblk1 V c 1 t) (V c main_v28) (V c main_v16) (iblk1 V c 2 t) (V c main_v30)
    (iblk1 V c 3 t) (V c main_v32) (iblk1 V c 4 t) (V c main_v34)
    (y 0) ((((cfg1.win 5).blk t).view.emb y) 0) (y 1) ((((cfg1.win 5).blk t).view.emb y) 1)
    (fun k => ?_) (fun k => ?_) (fun k => ?_) ?_ (fun k => ?_)
  · show V c main_v28 (((cfg1.win 0).blk t).view.emb (ix2 (y 0) k)) = V c main_v28 (ix2 ((((cfg1.win 5).blk t).view.emb y) 0) k)
    refine congrArg (V c main_v28) (funext fun a => Fin.ext ?_)
    match a with
    | ⟨0, _⟩ => show win1_0.index t (0 : Fin 2) * 10000 + 1 * (y 0).val = win1_5.index t (0 : Fin 2) * 10000 + 1 * (y 0).val; omega
    | ⟨1, _⟩ => show win1_0.index t (1 : Fin 2) * 64 + 1 * k.val = k.val; omega
  · show V c main_v16 (((cfg1.win 1).blk t).view.emb (ix2 (y 0) k)) = V c main_v16 (ix2 ((((cfg1.win 5).blk t).view.emb y) 0) k)
    refine congrArg (V c main_v16) (funext fun a => Fin.ext ?_)
    match a with
    | ⟨0, _⟩ => show win1_1.index t (0 : Fin 2) * 10000 + 1 * (y 0).val = win1_5.index t (0 : Fin 2) * 10000 + 1 * (y 0).val; omega
    | ⟨1, _⟩ => show win1_1.index t (1 : Fin 2) * 64 + 1 * k.val = k.val; omega
  · show V c main_v30 (((cfg1.win 2).blk t).view.emb (ix2 k (y 1))) = V c main_v30 (ix2 k ((((cfg1.win 5).blk t).view.emb y) 1))
    refine congrArg (V c main_v30) (funext fun a => Fin.ext ?_)
    match a with
    | ⟨0, _⟩ => show win1_2.index t (0 : Fin 2) * 64 + 1 * k.val = k.val; omega
    | ⟨1, _⟩ => show win1_2.index t (1 : Fin 2) * 64 + 1 * (y 1).val = win1_5.index t (1 : Fin 2) * 64 + 1 * (y 1).val; omega
  · show V c main_v32 (((cfg1.win 3).blk t).view.emb (ix1 (y 1))) = V c main_v32 (ix1 ((((cfg1.win 5).blk t).view.emb y) 1))
    refine congrArg (V c main_v32) (funext fun a => Fin.ext ?_)
    match a with
    | ⟨0, _⟩ => show win1_3.index t (0 : Fin 1) * 64 + 1 * (y 1).val = win1_5.index t (1 : Fin 2) * 64 + 1 * (y 1).val; omega
  · show V c main_v34 (((cfg1.win 4).blk t).view.emb (ix2 k (y 1))) = V c main_v34 (ix2 k ((((cfg1.win 5).blk t).view.emb y) 1))
    refine congrArg (V c main_v34) (funext fun a => Fin.ext ?_)
    match a with
    | ⟨0, _⟩ => show win1_4.index t (0 : Fin 2) * 64 + 1 * k.val = k.val; omega
    | ⟨1, _⟩ => show win1_4.index t (1 : Fin 2) * 64 + 1 * (y 1).val = win1_5.index t (1 : Fin 2) * 64 + 1 * (y 1).val; omega

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v35).slice (win1_5.rect t)).set ↔ _
  rw [View.set_slice_whole, Rect.mem_set_unit]
  exact Iff.rfl

/-- The ten row blocks cover the array: row `r` is in the block of the point whose block index is `r / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After the region the output array is the SAGE combination's array of the region's entry contents. -/
theorem final (c : Dev nD) : (dat1 V c).arrAt 5 cfg1.N = sageArr V c :=
  (dat1 V c).arrAt_eq_of_cover 5 (sageArr V c) (fun t _ => flushed_eq V c t) cover

end Cert.KernelIdeal.SageRegion1

end
-- ==== Proof.KernelValue1.lean ====
/-
  The idealized kernel's buffers in the reference's terms, 2 of 5: SAGE layer 1.

  Layer 1: the host stretch that gathers the previous node features at the source indices, adds them up per
  destination index, scales by the inverse degree and slices the layer's parameters; then the region that
  combines them. Each operand is identified with the reference's stage, so the stretch's results coincide with
  the reference's, and the region's output is the reference's SAGE combination 1.
-/
import proofs.«139122_j87677462380867_1_alg».proof.Proof.KernelValue0
import proofs.«139122_j87677462380867_1_alg».proof.Proof.SageRegion1

set_option maxRecDepth 16384

noncomputable section

namespace Cert.KernelIdeal.KernelValue

open Cert.KernelIdeal Cert.KernelIdeal.Gen Cert.Dense
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Layer 1's aggregated neighbour features: the previous node features gathered at the source indices, added up per destination index, scaled by the inverse degree — the reference's operations on operands that hold the reference's stages. -/
theorem v28_at5 (c : Dev nD) : W5 m ρ c (Proc.devRef .tc main_v28) = Cert.ReferenceIdeal.Read.val_main_v32 (F := Ideal) (A0 m c) (A1 m c) (A3 m c) (A4 m c) := by
  dsimp only [W5, hostOps1]
  after_results_simp
  rw [Carry.at4_main_v1 m ρ c, v1_at3 m ρ c, Carry.at4_main_v3 m ρ c, v3_at3 m ρ c, Carry.at4_main_v15 m ρ c, v15_at3 m ρ c, v16_at4 m ρ c]
  rfl

/-- Slice 0 of the stacked neighbour weights. -/
theorem v30_at5 (c : Dev nD) : W5 m ρ c (Proc.devRef .tc main_v30) = Cert.ReferenceIdeal.Read.val_main_v34 (F := Ideal) (A5 m c) := by
  dsimp only [W5, hostOps1]
  after_results_simp
  rw [Carry.at4_main_arg5 m ρ c]
  rfl

/-- Slice 0 of the stacked biases. -/
theorem v32_at5 (c : Dev nD) : W5 m ρ c (Proc.devRef .tc main_v32) = Cert.ReferenceIdeal.Read.val_main_v37 (F := Ideal) (A6 m c) := by
  dsimp only [W5, hostOps1]
  after_results_simp
  rw [Carry.at4_main_arg6 m ρ c]
  rfl

/-- Slice 0 of the stacked root weights. -/
theorem v34_at5 (c : Dev nD) : W5 m ρ c (Proc.devRef .tc main_v34) = Cert.ReferenceIdeal.Read.val_main_v42 (F := Ideal) (A7 m c) := by
  dsimp only [W5, hostOps1]
  after_results_simp
  rw [Carry.at4_main_arg7 m ρ c]
  rfl

/-- The stretch does not write the previous node features. -/
theorem v16_at5 (c : Dev nD) : W5 m ρ c (Proc.devRef .tc main_v16) = W4 m ρ c (Proc.devRef .tc main_v16) := Carry.st5_main_v16 m ρ c

/-- After region 1 its output holds the reference's SAGE combination 1 of the launch arguments: the region leaves
    the dense function of its five input arrays, each of which holds the reference's stage. -/
theorem v35_at6 (c : Dev nD) : W6 m ρ c (Proc.devRef .tc main_v35) = Cert.ReferenceIdeal.Read.val_main_v45 (F := Ideal) (A0 m c) (A1 m c) (A3 m c) (A4 m c) (A5 m c) (A6 m c) (A7 m c) := by
  refine (W6_arr m ρ c 5).trans ((SageRegion1.final (V5 m ρ) c).trans ?_)
  rw [Cert.ReferenceIdeal.Stages.sage_stage1]
  unfold SageRegion1.sageArr
  have ea : V5 m ρ c main_v28 = Cert.ReferenceIdeal.Read.val_main_v32 (F := Ideal) (A0 m c) (A1 m c) (A3 m c) (A4 m c) := v28_at5 m ρ c
  have eh : V5 m ρ c main_v16 = Cert.ReferenceIdeal.Read.val_main_v20 (F := Ideal) (A0 m c) (A3 m c) (A4 m c) := (v16_at5 m ρ c).trans (v16_at4 m ρ c)
  have ewl : V5 m ρ c main_v30 = Cert.ReferenceIdeal.Read.val_main_v34 (F := Ideal) (A5 m c) := v30_at5 m ρ c
  have ebl : V5 m ρ c main_v32 = Cert.ReferenceIdeal.Read.val_main_v37 (F := Ideal) (A6 m c) := v32_at5 m ρ c
  have ewr : V5 m ρ c main_v34 = Cert.ReferenceIdeal.Read.val_main_v42 (F := Ideal) (A7 m c) := v34_at5 m ρ c
  rw [ea, eh, ewl, ebl, ewr]

end Cert.KernelIdeal.KernelValue

end
-- ==== Proof.SageRegion2.lean ====
/-
  The third pallas_call (SAGE combination 2 of 3), read as a value.

  Its grid has ten points; point `t` loads rows `10000·t … 10000·t + 9999` of the aggregated neighbour features
  `a` and of the nodes' own features `h`, the two whole 64×64 weight matrices and the bias vector, and stores on
  those rows the positive part of `(a·Wl + bl) + h·Wr`, grouped exactly so. Stated at any contents `V` the region
  may be entered with, the array it leaves is

      out[r, j] = max ((Σₖ a[r,k]·Wl[k,j] + bl[j]) + Σₖ h[r,k]·Wr[k,j]) 0      for all 100000 rows.
-/
import proofs.«139122_j87677462380867_1_alg».proof.Proof.Gen.KernelIdeal.Frame
import proofs.«139122_j87677462380867_1_alg».proof.Proof.DenseSpec
import proofs.«139122_j87677462380867_1_alg».proof.Proof.MatProd
import Idealize.ShloMosaic.Lib.Pipeline.Value
import Idealize.ShloMosaic.Lib.ValueLayout
import Idealize.ShloMosaic.Lib.ValueIdx

set_option maxRecDepth 16384

noncomputable section

namespace Cert.KernelIdeal.SageRegion2

open Cert.KernelIdeal Cert.KernelIdeal.Gen Cert.KernelIdeal.MatProd Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A rectangle at offset zero on both axes. -/
theorem hz2 : (![0, 0] : Fin 2 → Nat) = fun _ => 0 := funext fun a => by fin_cases a <;> rfl
/-- A rectangle at offset zero on its one axis. -/
theorem hz1 : (![0] : Fin 1 → Nat) = fun _ => 0 := funext fun a => by fin_cases a <;> rfl

/-- The body's stored value at entry `(p, q)` of the block is the SAGE combination's entry of the five loaded
    blocks: each product into a zero accumulator is the sum over the contracted axis, the bias vector is re-laid as
    a row and repeated down the rows, the casts to the same shape and the format changes are the identity, the two
    sums are added in the body's grouping, and the positive part is taken against the zero word. -/
theorem pay_at (a : Vec Ideal S10000x64 .f32) (wl : Vec Ideal S64x64 .f32) (h : Vec Ideal S10000x64 .f32)
    (wr : Vec Ideal S64x64 .f32) (bl : Vec Ideal S64 .f32) (p : Fin 10000) (q : Fin 64) :
    k2_pay1 (F := Ideal) a wl h wr bl (ix2 p q) = sageAt (n := 10000) a h wl bl wr p q := by
  unfold k2_pay1 sageAt
  simp only [shapeCast_self]
  rw [maximumf_apply, addf_apply, addf_apply, broadcast_apply, mmB_at, mmB_at, broadcastTo_1b_ab_apply, shapeCast_a_1a_apply]
  rfl

/-- The index maps over the ten grid points: the row blocks of `a` and of `h` move with the output's, every other
    block index is zero. -/
theorem idx_facts : ∀ t : Fin cfg2.N, win2_0.index t (0 : Fin 2) = win2_5.index t (0 : Fin 2)
    ∧ win2_1.index t (0 : Fin 2) = win2_5.index t (0 : Fin 2)
    ∧ win2_0.index t (1 : Fin 2) = 0 ∧ win2_1.index t (1 : Fin 2) = 0 ∧ win2_5.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0 ∧ win2_5.index t (0 : Fin 2) ≤ 9 :=
  (by decide +kernel : ∀ t : Fin grid2.N, _)

/-- Every one of the ten row blocks of the output is some point's. -/
theorem idx_onto : ∀ (q0 : Fin 10), ∃ t : Fin cfg2.N, win2_5.index t = ![q0.val, 0] :=
  (by decide +kernel : ∀ (q0 : Fin 10), ∃ t : Fin grid2.N, win2_5.index t = ![q0.val, 0])

/-- The SAGE combination's array of the region's entry contents. -/
def sageArr (c : Dev nD) : S100000x64.Idx → EReal :=
  fun i => sageAt (n := 100000) (V c main_v47) (V c main_v35) (V c main_v49) (V c main_v51) (V c main_v53) (i 0) (i 1)

/-- What point `t` writes back is block `t` of that array: entry `(p, q)` of the block is row `index·10000 + p`,
    column `q` of the array, and it reads that row of `a` and of `h` and all of the weights and the bias. -/
theorem flushed_eq (c : Dev nD) (t : Fin cfg2.N) :
    (dat2 V c).flushed 5 t = ((cfg2.win 5).blk t).view.read (Elt Ideal) (sageArr V c) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x64) hz2, View.ld_unit_zero (S := S64) hz1]
  funext y
  show k2_pay1 (iblk2 V c 0 t) (iblk2 V c 2 t) (iblk2 V c 1 t) (iblk2 V c 4 t) (iblk2 V c 3 t) y
    = sageArr V c (((cfg2.win 5).blk t).view.emb y)
  obtain ⟨e0, e1, e2, e3, e4, e5, e6, e7, e8, e9, e10⟩ := idx_facts t
  refine (congrArg (k2_pay1 (iblk2 V c 0 t) (iblk2 V c 2 t) (iblk2 V c 1 t) (iblk2 V c 4 t) (iblk2 V c 3 t))
    (eq_ix2 (n0 := 10000) (n1 := 64) y)).trans ?_
  refine (pay_at (iblk2 V c 0 t) (iblk2 V c 2 t) (iblk2 V c 1 t) (iblk2 V c 4 t) (iblk2 V c 3 t) (y 0) (y 1)).trans ?_
  unfold sageArr
  refine sageAt_congr (iblk2 V c 0 t) (iblk2 V c 1 t) (V c main_v47) (V c main_v35) (iblk2 V c 2 t) (V c main_v49)
    (iblk2 V c 3 t) (V c main_v51) (iblk2 V c 4 t) (V c main_v53)
    (y 0) ((((cfg2.win 5).blk t).view.emb y) 0) (y 1) ((((cfg2.win 5).blk t).view.emb y) 1)
    (fun k => ?_) (fun k => ?_) (fun k => ?_) ?_ (fun k => ?_)
  · show V c main_v47 (((cfg2.win 0).blk t).view.emb (ix2 (y 0) k)) = V c main_v47 (ix2 ((((cfg2.win 5).blk t).view.emb y) 0) k)
    refine congrArg (V c main_v47) (funext fun a => Fin.ext ?_)
    match a with
    | ⟨0, _⟩ => show win2_0.index t (0 : Fin 2) * 10000 + 1 * (y 0).val = win2_5.index t (0 : Fin 2) * 10000 + 1 * (y 0).val; omega
    | ⟨1, _⟩ => show win2_0.index t (1 : Fin 2) * 64 + 1 * k.val = k.val; omega
  · show V c main_v35 (((cfg2.win 1).blk t).view.emb (ix2 (y 0) k)) = V c main_v35 (ix2 ((((cfg2.win 5).blk t).view.emb y) 0) k)
    refine congrArg (V c main_v35) (funext fun a => Fin.ext ?_)
    match a with
    | ⟨0, _⟩ => show win2_1.index t (0 : Fin 2) * 10000 + 1 * (y 0).val = win2_5.index t (0 : Fin 2) * 10000 + 1 * (y 0).val; omega
    | ⟨1, _⟩ => show win2_1.index t (1 : Fin 2) * 64 + 1 * k.val = k.val; omega
  · show V c main_v49 (((cfg2.win 2).blk t).view.emb (ix2 k (y 1))) = V c main_v49 (ix2 k ((((cfg2.win 5).blk t).view.emb y) 1))
    refine congrArg (V c main_v49) (funext fun a => Fin.ext ?_)
    match a with
    | ⟨0, _⟩ => show win2_2.index t (0 : Fin 2) * 64 + 1 * k.val = k.val; omega
    | ⟨1, _⟩ => show win2_2.index t (1 : Fin 2) * 64 + 1 * (y 1).val = win2_5.index t (1 : Fin 2) * 64 + 1 * (y 1).val; omega
  · show V c main_v51 (((cfg2.win 3).blk t).view.emb (ix1 (y 1))) = V c main_v51 (ix1 ((((cfg2.win 5).blk t).view.emb y) 1))
    refine congrArg (V c main_v51) (funext fun a => Fin.ext ?_)
    match a with
    | ⟨0, _⟩ => show win2_3.index t (0 : Fin 1) * 64 + 1 * (y 1).val = win2_5.index t (1 : Fin 2) * 64 + 1 * (y 1).val; omega
  · show V c main_v53 (((cfg2.win 4).blk t).view.emb (ix2 k (y 1))) = V c main_v53 (ix2 k ((((cfg2.win 5).blk t).view.emb y) 1))
    refine congrArg (V c main_v53) (funext fun a => Fin.ext ?_)
    match a with
    | ⟨0, _⟩ => show win2_4.index t (0 : Fin 2) * 64 + 1 * k.val = k.val; omega
    | ⟨1, _⟩ => show win2_4.index t (1 : Fin 2) * 64 + 1 * (y 1).val = win2_5.index t (1 : Fin 2) * 64 + 1 * (y 1).val; omega

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v54).slice (win2_5.rect t)).set ↔ _
  rw [View.set_slice_whole, Rect.mem_set_unit]
  exact Iff.rfl

/-- The ten row blocks cover the array: row `r` is in the block of the point whose block index is `r / 10000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- After the region the output array is the SAGE combination's array of the region's entry contents. -/
theorem final (c : Dev nD) : (dat2 V c).arrAt 5 cfg2.N = sageArr V c :=
  (dat2 V c).arrAt_eq_of_cover 5 (sageArr V c) (fun t _ => flushed_eq V c t) cover

end Cert.KernelIdeal.SageRegion2

end
-- ==== Proof.KernelValue2.lean ====
/-
  The idealized kernel's buffers in the reference's terms, 3 of 5: SAGE layer 2.

  Layer 2: the host stretch that gathers the previous node features at the source indices, adds them up per
  destination index, scales by the inverse degree and slices the layer's parameters; then the region that
  combines them. Each operand is identified with the reference's stage, so the stretch's results coincide with
  the reference's, and the region's output is the reference's SAGE combination 2.
-/
import proofs.«139122_j87677462380867_1_alg».proof.Proof.KernelValue1
import proofs.«139122_j87677462380867_1_alg».proof.Proof.SageRegion2

set_option maxRecDepth 16384

noncomputable section

namespace Cert.KernelIdeal.KernelValue

open Cert.KernelIdeal Cert.KernelIdeal.Gen Cert.Dense
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Layer 2's aggregated neighbour features: the previous node features gathered at the source indices, added up per destination index, scaled by the inverse degree — the reference's operations on operands that hold the reference's stages. -/
theorem v47_at7 (c : Dev nD) : W7 m ρ c (Proc.devRef .tc main_v47) = Cert.ReferenceIdeal.Read.val_main_v57 (F := Ideal) (A0 m c) (A1 m c) (A3 m c) (A4 m c) (A5 m c) (A6 m c) (A7 m c) := by
  dsimp only [W7, hostOps2]
  after_results_simp
  rw [Carry.at6_main_v1 m ρ c, v1_at3 m ρ c, Carry.at6_main_v3 m ρ c, v3_at3 m ρ c, Carry.at6_main_v15 m ρ c, v15_at3 m ρ c, v35_at6 m ρ c]
  rfl

/-- Slice 1 of the stacked neighbour weights. -/
theorem v49_at7 (c : Dev nD) : W7 m ρ c (Proc.devRef .tc main_v49) = Cert.ReferenceIdeal.Read.val_main_v59 (F := Ideal) (A5 m c) := by
  dsimp only [W7, hostOps2]
  after_results_simp
  rw [Carry.at6_main_arg5 m ρ c]
  rfl

/-- Slice 1 of the stacked biases. -/
theorem v51_at7 (c : Dev nD) : W7 m ρ c (Proc.devRef .tc main_v51) = Cert.ReferenceIdeal.Read.val_main_v62 (F := Ideal) (A6 m c) := by
  dsimp only [W7, hostOps2]
  after_results_simp
  rw [Carry.at6_main_arg6 m ρ c]
  rfl

/-- Slice 1 of the stacked root weights. -/
theorem v53_at7 (c : Dev nD) : W7 m ρ c (Proc.devRef .tc main_v53) = Cert.ReferenceIdeal.Read.val_main_v67 (F := Ideal) (A7 m c) := by
  dsimp only [W7, hostOps2]
  after_results_simp
  rw [Carry.at6_main_arg7 m ρ c]
  rfl

/-- The stretch does not write the previous node features. -/
theorem v35_at7 (c : Dev nD) : W7 m ρ c (Proc.devRef .tc main_v35) = W6 m ρ c (Proc.devRef .tc main_v35) := Carry.st7_main_v35 m ρ c

/-- After region 2 its output holds the reference's SAGE combination 2 of the launch arguments: the region leaves
    the dense function of its five input arrays, each of which holds the reference's stage. -/
theorem v54_at8 (c : Dev nD) : W8 m ρ c (Proc.devRef .tc main_v54) = Cert.ReferenceIdeal.Read.val_main_v70 (F := Ideal) (A0 m c) (A1 m c) (A3 m c) (A4 m c) (A5 m c) (A6 m c) (A7 m c) := by
  refine (W8_arr m ρ c 5).trans ((SageRegion2.final (V7 m ρ) c).trans ?_)
  rw [Cert.ReferenceIdeal.Stages.sage_stage2]
  unfold SageRegion2.sageArr
  have ea : V7 m ρ c main_v47 = Cert.ReferenceIdeal.Read.val_main_v57 (F := Ideal) (A0 m c) (A1 m c) (A3 m c) (A4 m c) (A5 m c) (A6 m c) (A7 m c) := v47_at7 m ρ c
  have eh : V7 m ρ c main_v35 = Cert.ReferenceIdeal.Read.val_main_v45 (F := Ideal) (A0 m c) (A1 m c) (A3 m c) (A4 m c) (A5 m c) (A6 m c) (A7 m c) := (v35_at7 m ρ c).trans (v35_at6 m ρ c)
  have ewl : V7 m ρ c main_v49 = Cert.ReferenceIdeal.Read.val_main_v59 (F := Ideal) (A5 m c) := v49_at7 m ρ c
  have ebl : V7 m ρ c main_v51 = Cert.ReferenceIdeal.Read.val_main_v62 (F := Ideal) (A6 m c) := v51_at7 m ρ c
  have ewr : V7 m ρ c main_v53 = Cert.ReferenceIdeal.Read.val_main_v67 (F := Ideal) (A7 m c) := v53_at7 m ρ c
  rw [ea, eh, ewl, ebl, ewr]

end Cert.KernelIdeal.KernelValue

end
-- ==== Proof.SageRegion3.lean ====
/-
  The fourth pallas_call (SAGE combination 3 of 3), read as a value.

  Its grid has ten points; point `t` loads rows `10000·t … 10000·t + 9999` of the aggregated neighbour features
  `a` and of the nodes' own features `h`, the two whole 64×64 weight matrices and the bias vector, and stores on
  those rows the positive part of `(a·Wl + bl) + h·Wr`, grouped exactly so. Stated at any contents `V` the region
  may be entered with, the array it leaves is

      out[r, j] = max ((Σₖ a[r,k]·Wl[k,j] + bl[j]) + Σₖ h[r,k]·Wr[k,j]) 0      for all 100000 rows.
-/
import proofs.«139122_j87677462380867_1_alg».proof.Proof.Gen.KernelIdeal.Frame
import proofs.«139122_j87677462380867_1_alg».proof.Proof.DenseSpec
import proofs.«139122_j87677462380867_1_alg».proof.Proof.MatProd
import Idealize.ShloMosaic.Lib.Pipeline.Value
import Idealize.ShloMosaic.Lib.ValueLayout
import Idealize.ShloMosaic.Lib.ValueIdx

set_option maxRecDepth 16384

noncomputable section

namespace Cert.KernelIdeal.SageRegion3

open Cert.KernelIdeal Cert.KernelIdeal.Gen Cert.KernelIdeal.MatProd Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A rectangle at offset zero on both axes. -/
theorem hz2 : (![0, 0] : Fin 2 → Nat) = fun _ => 0 := funext fun a => by fin_cases a <;> rfl
/-- A rectangle at offset zero on its one axis. -/
theorem hz1 : (![0] : Fin 1 → Nat) = fun _ => 0 := funext fun a => by fin_cases a <;> rfl

/-- The body's stored value at entry `(p, q)` of the block is the SAGE combination's entry of the five loaded
    blocks: each product into a zero accumulator is the sum over the contracted axis, the bias vector is re-laid as
    a row and repeated down the rows, the casts to the same shape and the format changes are the identity, the two
    sums are added in the body's grouping, and the positive part is taken against the zero word. -/
theorem pay_at (a : Vec Ideal S10000x64 .f32) (wl : Vec Ideal S64x64 .f32) (h : Vec Ideal S10000x64 .f32)
    (wr : Vec Ideal S64x64 .f32) (bl : Vec Ideal S64 .f32) (p : Fin 10000) (q : Fin 64) :
    k3_pay1 (F := Ideal) a wl h wr bl (ix2 p q) = sageAt (n := 10000) a h wl bl wr p q := by
  unfold k3_pay1 sageAt
  simp only [shapeCast_self]
  rw [maximumf_apply, addf_apply, addf_apply, broadcast_apply, mmB_at, mmB_at, broadcastTo_1b_ab_apply, shapeCast_a_1a_apply]
  rfl

/-- The index maps over the ten grid points: the row blocks of `a` and of `h` move with the output's, every other
    block index is zero. -/
theorem idx_facts : ∀ t : Fin cfg3.N, win3_0.index t (0 : Fin 2) = win3_5.index t (0 : Fin 2)
    ∧ win3_1.index t (0 : Fin 2) = win3_5.index t (0 : Fin 2)
    ∧ win3_0.index t (1 : Fin 2) = 0 ∧ win3_1.index t (1 : Fin 2) = 0 ∧ win3_5.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0 ∧ win3_5.index t (0 : Fin 2) ≤ 9 :=
  (by decide +kernel : ∀ t : Fin grid3.N, _)

/-- Every one of the ten row blocks of the output is some point's. -/
theorem idx_onto : ∀ (q0 : Fin 10), ∃ t : Fin cfg3.N, win3_5.index t = ![q0.val, 0] :=
  (by decide +kernel : ∀ (q0 : Fin 10), ∃ t : Fin grid3.N, win3_5.index t = ![q0.val, 0])

/-- The SAGE combination's array of the region's entry contents. -/
def sageArr (c : Dev nD) : S100000x64.Idx → EReal :=
  fun i => sageAt (n := 100000) (V c main_v66) (V c main_v54) (V c main_v68) (V c main_v70) (V c main_v72) (i 0) (i 1)

set_option maxHeartbeats 1600000 in
/-- What point `t` writes back is block `t` of that array: entry `(p, q)` of the block is row `index·10000 + p`,
    column `q` of the array, and it reads that row of `a` and of `h` and all of the weights and the bias. -/
theorem flushed_eq (c : Dev nD) (t : Fin cfg3.N) :
    (dat3 V c).flushed 5 t = ((cfg3.win 5).blk t).view.read (Elt Ideal) (sageArr V c) := by
  show (cfg3.win 5).cut (grid3.coords t) ((dat3 V c).after 5 t) = _
  rw [after3_5]
  unfold out3_5
  rw [View.canon_unit_zero hz2]
  simp only [View.ld_unit_zero (S := S10000x64) hz2, View.ld_unit_zero (S := S64x64) hz2, View.ld_unit_zero (S := S64) hz1]
  funext y
  show k3_pay1 (iblk3 V c 0 t) (iblk3 V c 2 t) (iblk3 V c 1 t) (iblk3 V c 4 t) (iblk3 V c 3 t) y
    = sageArr V c (((cfg3.win 5).blk t).view.emb y)
  obtain ⟨e0, e1, e2, e3, e4, e5, e6, e7, e8, e9, e10⟩ := idx_facts t
  refine (congrArg (k3_pay1 (iblk3 V c 0 t) (iblk3 V c 2 t) (iblk3 V c 1 t) (iblk3 V c 4 t) (iblk3 V c 3 t))
    (eq_ix2 (n0 := 10000) (n1 := 64) y)).trans ?_
  refine (pay_at (iblk3 V c 0 t) (iblk3 V c 2 t) (iblk3 V c 1 t) (iblk3 V c 4 t) (iblk3 V c 3 t) (y 0) (y 1)).trans ?_
  unfold sageArr
  refine sageAt_congr (iblk3 V c 0 t) (iblk3 V c 1 t) (V c main_v66) (V c main_v54) (iblk3 V c 2 t) (V c main_v68)
    (iblk3 V c 3 t) (V c main_v70) (iblk3 V c 4 t) (V c main_v72)
    (y 0) ((((cfg3.win 5).blk t).view.emb y) 0) (y 1) ((((cfg3.win 5).blk t).view.emb y) 1)
    (fun k => ?_) (fun k => ?_) (fun k => ?_) ?_ (fun k => ?_)
  · show V c main_v66 (((cfg3.win 0).blk t).view.emb (ix2 (y 0) k)) = V c main_v66 (ix2 ((((cfg3.win 5).blk t).view.emb y) 0) k)
    refine congrArg (V c main_v66) (funext fun a => Fin.ext ?_)
    match a with
    | ⟨0, _⟩ => show win3_0.index t (0 : Fin 2) * 10000 + 1 * (y 0).val = win3_5.index t (0 : Fin 2) * 10000 + 1 * (y 0).val; omega
    | ⟨1, _⟩ => show win3_0.index t (1 : Fin 2) * 64 + 1 * k.val = k.val; omega
  · show V c main_v54 (((cfg3.win 1).blk t).view.emb (ix2 (y 0) k)) = V c main_v54 (ix2 ((((cfg3.win 5).blk t).view.emb y) 0) k)
    refine congrArg (V c main_v54) (funext fun a => Fin.ext ?_)
    match a with
    | ⟨0, _⟩ => show win3_1.index t (0 : Fin 2) * 10000 + 1 * (y 0).val = win3_5.index t (0 : Fin 2) * 10000 + 1 * (y 0).val; omega
    | ⟨1, _⟩ => show win3_1.index t (1 : Fin 2) * 64 + 1 * k.val = k.val; omega
  · show V c main_v68 (((cfg3.win 2).blk t).view.emb (ix2 k (y 1))) = V c main_v68 (ix2 k ((((cfg3.win 5).blk t).view.emb y) 1))
    refine congrArg (V c main_v68) (funext fun a => Fin.ext ?_)
    match a with
    | ⟨0, _⟩ => show win3_2.index t (0 : Fin 2) * 64 + 1 * k.val = k.val; omega
    | ⟨1, _⟩ => show win3_2.index t (1 : Fin 2) * 64 + 1 * (y 1).val = win3_5.index t (1 : Fin 2) * 64 + 1 * (y 1).val; omega
  · show V c main_v70 (((cfg3.win 3).blk t).view.emb (ix1 (y 1))) = V c main_v70 (ix1 ((((cfg3.win 5).blk t).view.emb y) 1))
    refine congrArg (V c main_v70) (funext fun a => Fin.ext ?_)
    match a with
    | ⟨0, _⟩ => show win3_3.index t (0 : Fin 1) * 64 + 1 * (y 1).val = win3_5.index t (1 : Fin 2) * 64 + 1 * (y 1).val; omega
  · show V c main_v72 (((cfg3.win 4).blk t).view.emb (ix2 k (y 1))) = V c main_v72 (ix2 k ((((cfg3.win 5).blk t).view.emb y) 1))
    refine congrArg (V c main_v72) (funext fun a => Fin.ext ?_)
    match a with
    | ⟨0, _⟩ => show win3_4.index t (0 : Fin 2) * 64 + 1 * k.val = k.val; omega
    | ⟨1, _⟩ => show win3_4.index t (1 : Fin 2) * 64 + 1 * (y 1).val = win3_5.index t (1 : Fin 2) * 64 + 1 * (y 1).val; omega

/-- An index of the array is in point `t`'s block iff each coordinate is in the block's range on its axis. -/
theorem mem_blk (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v73).slice (win3_5.rect t)).set ↔ _
  rw [View.set_slice_whole, Rect.mem_set_unit]
  exact Iff.rfl

/-- The ten row blocks cover the array: row `r` is in the block of the point whose block index is `r / 10000`. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- After the region the output array is the SAGE combination's array of the region's entry contents. -/
theorem final (c : Dev nD) : (dat3 V c).arrAt 5 cfg3.N = sageArr V c :=
  (dat3 V c).arrAt_eq_of_cover 5 (sageArr V c) (fun t _ => flushed_eq V c t) cover

end Cert.KernelIdeal.SageRegion3

end
-- ==== Proof.KernelValue3.lean ====
/-
  The idealized kernel's buffers in the reference's terms, 4 of 5: SAGE layer 3.

  Layer 3: the host stretch that gathers the previous node features at the source indices, adds them up per
  destination index, scales by the inverse degree and slices the layer's parameters; then the region that
  combines them. Each operand is identified with the reference's stage, so the stretch's results coincide with
  the reference's, and the region's output is the reference's SAGE combination 3.
-/
import proofs.«139122_j87677462380867_1_alg».proof.Proof.KernelValue2
import proofs.«139122_j87677462380867_1_alg».proof.Proof.SageRegion3

set_option maxRecDepth 16384

noncomputable section

namespace Cert.KernelIdeal.KernelValue

open Cert.KernelIdeal Cert.KernelIdeal.Gen Cert.Dense
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Layer 3's aggregated neighbour features: the previous node features gathered at the source indices, added up per destination index, scaled by the inverse degree — the reference's operations on operands that hold the reference's stages. -/
theorem v66_at9 (c : Dev nD) : W9 m ρ c (Proc.devRef .tc main_v66) = Cert.ReferenceIdeal.Read.val_main_v82 (F := Ideal) (A0 m c) (A1 m c) (A3 m c) (A4 m c) (A5 m c) (A6 m c) (A7 m c) := by
  dsimp only [W9, hostOps3]
  after_results_simp
  rw [Carry.at8_main_v1 m ρ c, v1_at3 m ρ c, Carry.at8_main_v3 m ρ c, v3_at3 m ρ c, Carry.at8_main_v15 m ρ c, v15_at3 m ρ c, v54_at8 m ρ c]
  rfl

/-- Slice 2 of the stacked neighbour weights. -/
theorem v68_at9 (c : Dev nD) : W9 m ρ c (Proc.devRef .tc main_v68) = Cert.ReferenceIdeal.Read.val_main_v84 (F := Ideal) (A5 m c) := by
  dsimp only [W9, hostOps3]
  after_results_simp
  rw [Carry.at8_main_arg5 m ρ c]
  rfl

/-- Slice 2 of the stacked biases. -/
theorem v70_at9 (c : Dev nD) : W9 m ρ c (Proc.devRef .tc main_v70) = Cert.ReferenceIdeal.Read.val_main_v87 (F := Ideal) (A6 m c) := by
  dsimp only [W9, hostOps3]
  after_results_simp
  rw [Carry.at8_main_arg6 m ρ c]
  rfl

/-- Slice 2 of the stacked root weights. -/
theorem v72_at9 (c : Dev nD) : W9 m ρ c (Proc.devRef .tc main_v72) = Cert.ReferenceIdeal.Read.val_main_v92 (F := Ideal) (A7 m c) := by
  dsimp only [W9, hostOps3]
  after_results_simp
  rw [Carry.at8_main_arg7 m ρ c]
  rfl

/-- The stretch does not write the previous node features. -/
theorem v54_at9 (c : Dev nD) : W9 m ρ c (Proc.devRef .tc main_v54) = W8 m ρ c (Proc.devRef .tc main_v54) := Carry.st9_main_v54 m ρ c

/-- After region 3 its output holds the reference's SAGE combination 3 of the launch arguments: the region leaves
    the dense function of its five input arrays, each of which holds the reference's stage. -/
theorem v73_at10 (c : Dev nD) : W10 m ρ c (Proc.devRef .tc main_v73) = Cert.ReferenceIdeal.Read.val_main_v95 (F := Ideal) (A0 m c) (A1 m c) (A3 m c) (A4 m c) (A5 m c) (A6 m c) (A7 m c) := by
  refine (W10_arr m ρ c 5).trans ((SageRegion3.final (V9 m ρ) c).trans ?_)
  rw [Cert.ReferenceIdeal.Stages.sage_stage3]
  unfold SageRegion3.sageArr
  have ea : V9 m ρ c main_v66 = Cert.ReferenceIdeal.Read.val_main_v82 (F := Ideal) (A0 m c) (A1 m c) (A3 m c) (A4 m c) (A5 m c) (A6 m c) (A7 m c) := v66_at9 m ρ c
  have eh : V9 m ρ c main_v54 = Cert.ReferenceIdeal.Read.val_main_v70 (F := Ideal) (A0 m c) (A1 m c) (A3 m c) (A4 m c) (A5 m c) (A6 m c) (A7 m c) := (v54_at9 m ρ c).trans (v54_at8 m ρ c)
  have ewl : V9 m ρ c main_v68 = Cert.ReferenceIdeal.Read.val_main_v84 (F := Ideal) (A5 m c) := v68_at9 m ρ c
  have ebl : V9 m ρ c main_v70 = Cert.ReferenceIdeal.Read.val_main_v87 (F := Ideal) (A6 m c) := v70_at9 m ρ c
  have ewr : V9 m ρ c main_v72 = Cert.ReferenceIdeal.Read.val_main_v92 (F := Ideal) (A7 m c) := v72_at9 m ρ c
  rw [ea, eh, ewl, ebl, ewr]

end Cert.KernelIdeal.KernelValue

end
-- ==== Proof.PredRegion.lean ====
/-
  The fifth pallas_call (the pair predictor), read as a value.

  Its grid has twenty points; point `t` loads rows `10000·t … 10000·t + 9999` of the concatenated pair features
  `z`, the whole hidden layer (`W1`, `b1`) and the whole output layer (`W2`, `b2`), and stores one column on those
  rows. Stated at any contents `V` the region may be entered with, the array it leaves is

      out[r, c] = Σⱼ (max (Σₖ z[r,k]·W1[k,j] + b1[j]) 0)·W2[j,c] + b2[c]      for all 200000 rows, c = 0.
-/
import proofs.«139122_j87677462380867_1_alg».proof.Proof.Gen.KernelIdeal.Frame
import proofs.«139122_j87677462380867_1_alg».proof.Proof.DenseSpec
import proofs.«139122_j87677462380867_1_alg».proof.Proof.MatProd
import proofs.«139122_j87677462380867_1_alg».proof.Proof.EncRegion
import Idealize.ShloMosaic.Lib.Pipeline.Value
import Idealize.ShloMosaic.Lib.ValueLayout
import Idealize.ShloMosaic.Lib.ValueIdx

set_option maxRecDepth 16384

noncomputable section

namespace Cert.KernelIdeal.PredRegion

open Cert.KernelIdeal Cert.KernelIdeal.Gen Cert.KernelIdeal.MatProd Cert.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A rectangle at offset zero on both axes. -/
theorem hz2 : (![0, 0] : Fin 2 → Nat) = fun _ => 0 := funext fun a => by fin_cases a <;> rfl
/-- A rectangle at offset zero on its one axis. -/
theorem hz1 : (![0] : Fin 1 → Nat) = fun _ => 0 := funext fun a => by fin_cases a <;> rfl

/-- The body's stored value at entry `(p, c)` of the block is the predictor's entry of the five loaded blocks: the
    hidden layer at `(p, j)` is the encoder's body on `z`, `W1`, `b1`; the second product into a zero accumulator
    sums it against column `c` of `W2`; the one-entry bias is re-laid as a 1×1 row and repeated down the rows. -/
theorem pay_at (z : Vec Ideal S10000x128 .f32) (w1 : Vec Ideal S128x64 .f32) (b1 : Vec Ideal S64 .f32)
    (w2 : Vec Ideal S64x1 .f32) (b2 : Vec Ideal S1 .f32) (p : Fin 10000) (c : Fin 1) :
    k4_pay1 (F := Ideal) z w1 b1 w2 b2 (ix2 p c) = predAt (n := 10000) z w1 b1 w2 b2 p c := by
  unfold k4_pay1 predAt
  simp only [shapeCast_self]
  rw [addf_apply, mmC_at, broadcastTo_1b_ab_apply, shapeCast_a_1a_apply]
  refine congrArg (· + b2 (ix1 c)) (Finset.sum_congr rfl fun j _ => ?_)
  exact congrArg (· * w2 (ix2 j c)) (EncRegion.pay0_at z w1 b1 p j)

/-- The index maps over the twenty grid points: the row block of `z` moves with the output's, every other block
    index is zero. -/
theorem idx_facts : ∀ t : Fin cfg4.N, win4_0.index t (0 : Fin 2) = win4_5.index t (0 : Fin 2)
    ∧ win4_0.index t (1 : Fin 2) = 0 ∧ win4_5.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0 ∧ win4_5.index t (0 : Fin 2) ≤ 19 :=
  (by decide +kernel : ∀ t : Fin grid4.N, _)

/-- Every one of the twenty row blocks of the output is some point's. -/
theorem idx_onto : ∀ (q0 : Fin 20), ∃ t : Fin cfg4.N, win4_5.index t = ![q0.val, 0] :=
  (by decide +kernel : ∀ (q0 : Fin 20), ∃ t : Fin grid4.N, win4_5.index t = ![q0.val, 0])

/-- The predictor's array of the region's entry contents. -/
def predArr (c : Dev nD) : S200000x1.Idx → EReal :=
  fun i => predAt (n := 200000) (V c main_v92) (V c main_arg8) (V c main_arg9) (V c main_arg10) (V c main_arg11) (i 0) (i 1)

/-- What point `t` writes back is block `t` of that array: entry `(p, c)` of the block is row `index·10000 + p` of
    the array, and it reads that row of `z` and all of the two layers. -/
theorem flushed_eq (c : Dev nD) (t : Fin cfg4.N) :
    (dat4 V c).flushed 5 t = ((cfg4.win 5).blk t).view.read (Elt Ideal) (predArr V c) := by
  show (cfg4.win 5).cut (grid4.coords t) ((dat4 V c).after 5 t) = _
  rw [after4_5]
  unfold out4_5
  rw [View.canon_unit_zero hz2]
  simp only [View.ld_unit_zero (S := S10000x128) hz2, View.ld_unit_zero (S := S128x64) hz2, View.ld_unit_zero (S := S64) hz1,
    View.ld_unit_zero (S := S64x1) hz2, View.ld_unit_zero (S := S1) hz1]
  funext y
  show k4_pay1 (iblk4 V c 0 t) (iblk4 V c 1 t) (iblk4 V c 2 t) (iblk4 V c 3 t) (iblk4 V c 4 t) y
    = predArr V c (((cfg4.win 5).blk t).view.emb y)
  obtain ⟨e0, e1, e2, e3, e4, e5, e6, e7, e8, e9⟩ := idx_facts t
  refine (congrArg (k4_pay1 (iblk4 V c 0 t) (iblk4 V c 1 t) (iblk4 V c 2 t) (iblk4 V c 3 t) (iblk4 V c 4 t))
    (eq_ix2 (n0 := 10000) (n1 := 1) y)).trans ?_
  refine (pay_at (iblk4 V c 0 t) (iblk4 V c 1 t) (iblk4 V c 2 t) (iblk4 V c 3 t) (iblk4 V c 4 t) (y 0) (y 1)).trans ?_
  unfold predArr
  refine predAt_congr (iblk4 V c 0 t) (V c main_v92) (iblk4 V c 1 t) (V c main_arg8) (iblk4 V c 2 t) (V c main_arg9)
    (iblk4 V c 3 t) (V c main_arg10) (iblk4 V c 4 t) (V c main_arg11)
    (y 0) ((((cfg4.win 5).blk t).view.emb y) 0) (y 1) ((((cfg4.win 5).blk t).view.emb y) 1)
    (fun k => ?_) (fun k j => ?_) (fun j => ?_) (fun j => ?_) ?_
  · show V c main_v92 (((cfg4.win 0).blk t).view.emb (ix2 (y 0) k)) = V c main_v92 (ix2 ((((cfg4.win 5).blk t).view.emb y) 0) k)
    refine congrArg (V c main_v92) (funext fun a => Fin.ext ?_)
    match a with
    | ⟨0, _⟩ => show win4_0.index t (0 : Fin 2) * 10000 + 1 * (y 0).val = win4_5.index t (0 : Fin 2) * 10000 + 1 * (y 0).val; omega
    | ⟨1, _⟩ => show win4_0.index t (1 : Fin 2) * 128 + 1 * k.val = k.val; omega
  · show V c main_arg8 (((cfg4.win 1).blk t).view.emb (ix2 k j)) = V c main_arg8 (ix2 k j)
    refine congrArg (V c main_arg8) (funext fun a => Fin.ext ?_)
    match a with
    | ⟨0, _⟩ => show win4_1.index t (0 : Fin 2) * 128 + 1 * k.val = k.val; omega
    | ⟨1, _⟩ => show win4_1.index t (1 : Fin 2) * 64 + 1 * j.val = j.val; omega
  · show V c main_arg9 (((cfg4.win 2).blk t).view.emb (ix1 j)) = V c main_arg9 (ix1 j)
    refine congrArg (V c main_arg9) (funext fun a => Fin.ext ?_)
    match a with
    | ⟨0, _⟩ => show win4_2.index t (0 : Fin 1) * 64 + 1 * j.val = j.val; omega
  · show V c main_arg10 (((cfg4.win 3).blk t).view.emb (ix2 j (y 1))) = V c main_arg10 (ix2 j ((((cfg4.win 5).blk t).view.emb y) 1))
    refine congrArg (V c main_arg10) (funext fun a => Fin.ext ?_)
    match a with
    | ⟨0, _⟩ => show win4_3.index t (0 : Fin 2) * 64 + 1 * j.val = j.val; omega
    | ⟨1, _⟩ => show win4_3.index t (1 : Fin 2) * 1 + 1 * (y 1).val = win4_5.index t (1 : Fin 2) * 1 + 1 * (y 1).val; omega
  · show V c main_arg11 (((cfg4.win 4).blk t).view.emb (ix1 (y 1))) = V c main_arg11 (ix1 ((((cfg4.win 5).blk t).view.emb y) 1))
    refine congrArg (V c main_arg11) (funext fun a => Fin.ext ?_)
    match a with
    | ⟨0, _⟩ => show win4_4.index t (0 : Fin 1) * 1 + 1 * (y 1).val = win4_5.index t (1 : Fin 2) * 1 + 1 * (y 1).val; omega

/-- An index of the array is in point `t`'s block iff each coordinate is in the block's range on its axis. -/
theorem mem_blk (t : Fin cfg4.N) (i : S200000x1.Idx) :
    i ∈ ((cfg4.win 5).blk t).view.set ↔ ∀ a : Fin 2, win4_5.index t a * S10000x1.size a ≤ (i a).val ∧ (i a).val < win4_5.index t a * S10000x1.size a + S10000x1.size a := by
  show i ∈ ((View.whole main_v93).slice (win4_5.rect t)).set ↔ _
  rw [View.set_slice_whole, Rect.mem_set_unit]
  exact Iff.rfl

/-- The twenty row blocks cover the array: row `r` is in the block of the point whose block index is `r / 10000`. -/
theorem cover (i : S200000x1.Idx) : ∃ t : Fin cfg4.N, (cfg4.win 5).flush t = true ∧ i ∈ ((cfg4.win 5).blk t).view.set := by
  have hi0 : (i 0).val < 200000 := (i 0).isLt
  have hi1 : (i 1).val < 1 := (i 1).isLt
  obtain ⟨t, ht⟩ := idx_onto ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 1 ≤ (i 1).val ∧ (i 1).val < win4_5.index t (1 : Fin 2) * 1 + 1; omega

/-- After the region the output array is the predictor's array of the region's entry contents. -/
theorem final (c : Dev nD) : (dat4 V c).arrAt 5 cfg4.N = predArr V c :=
  (dat4 V c).arrAt_eq_of_cover 5 (predArr V c) (fun t _ => flushed_eq V c t) cover

end Cert.KernelIdeal.PredRegion

end
-- ==== Proof.KernelValue4.lean ====
/-
  The idealized kernel's buffers in the reference's terms, 5 of 5: the pairs and the predictor.

  The last node features are gathered at the two columns of the pair list and concatenated; the predictor region
  maps each concatenated row to one number; the one column is re-laid as a vector. Each operand is identified with
  the reference's stage, so the result buffer at the end of @main is the reference's result term of the launch
  arguments.
-/
import proofs.«139122_j87677462380867_1_alg».proof.Proof.KernelValue3
import proofs.«139122_j87677462380867_1_alg».proof.Proof.PredRegion

set_option maxRecDepth 16384

noncomputable section

namespace Cert.KernelIdeal.KernelValue

open Cert.KernelIdeal Cert.KernelIdeal.Gen Cert.Dense
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The concatenated pair features: the last node features gathered at each column of the pair list, side by side.
    The last operation of the stretch joins two operands; each is read on its own — the pair column, made
    non-negative by adding the node count where it is negative, as a column of start indices for the gather — and is
    the reference's gather stage; the joined arrays are then the reference's. -/
theorem v92_at11 (c : Dev nD) : W11 m ρ c (Proc.devRef .tc main_v92) = Cert.ReferenceIdeal.Read.val_main_v114 (F := Ideal) (A0 m c) (A1 m c) (A2 m c) (A3 m c) (A4 m c) (A5 m c) (A6 m c) (A7 m c) := by
  dsimp only [W11, hostOps4]
  simp only [after_cons, after_nil]
  rw [binary_result]
  refine (congrArg₂ (fun a b => concatenate S200000x128 1 [⟨S200000x64, a⟩, ⟨S200000x64, b⟩]
      Facts₀.concatenates_S200000x64_S200000x64_S200000x128_d1)
    (?_ : _ = Cert.ReferenceIdeal.Read.val_main_v104 (F := Ideal) (A0 m c) (A1 m c) (A2 m c) (A3 m c) (A4 m c) (A5 m c) (A6 m c) (A7 m c)) (?_ : _ = Cert.ReferenceIdeal.Read.val_main_v113 (F := Ideal) (A0 m c) (A1 m c) (A2 m c) (A3 m c) (A4 m c) (A5 m c) (A6 m c) (A7 m c))).trans ?_
  · after_results_simp
    rw [Carry.at10_main_arg2 m ρ c, v73_at10 m ρ c]
    rfl
  · after_results_simp
    rw [Carry.at10_main_arg2 m ρ c, v73_at10 m ρ c]
    rfl
  · rfl

/-- After region 4 its output holds the reference's predictor stage of the launch arguments. -/
theorem v93_at12 (c : Dev nD) : W12 m ρ c (Proc.devRef .tc main_v93) = Cert.ReferenceIdeal.Read.val_main_v123 (F := Ideal) (A0 m c) (A1 m c) (A2 m c) (A3 m c) (A4 m c) (A5 m c) (A6 m c) (A7 m c) (A8 m c) (A9 m c) (A10 m c) (A11 m c) := by
  refine (W12_arr m ρ c 5).trans ((PredRegion.final (V11 m ρ) c).trans ?_)
  rw [Cert.ReferenceIdeal.Stages.pred_stage]
  unfold PredRegion.predArr
  have ez : V11 m ρ c main_v92 = Cert.ReferenceIdeal.Read.val_main_v114 (F := Ideal) (A0 m c) (A1 m c) (A2 m c) (A3 m c) (A4 m c) (A5 m c) (A6 m c) (A7 m c) := v92_at11 m ρ c
  have e8 : V11 m ρ c main_arg8 = A8 m c := Carry.at11_main_arg8 m ρ c
  have e9 : V11 m ρ c main_arg9 = A9 m c := Carry.at11_main_arg9 m ρ c
  have e10 : V11 m ρ c main_arg10 = A10 m c := Carry.at11_main_arg10 m ρ c
  have e11 : V11 m ρ c main_arg11 = A11 m c := Carry.at11_main_arg11 m ρ c
  rw [ez, e8, e9, e10, e11]

/-- The result buffer at the end of @main is the reference's result term of the launch arguments: the predictor's one column re-laid as a vector. -/
theorem v94_at13 (c : Dev nD) : W13 m ρ c (Proc.devRef .tc main_v94) = Cert.ReferenceIdeal.Read.val_main_v124 (F := Ideal) (A0 m c) (A1 m c) (A2 m c) (A3 m c) (A4 m c) (A5 m c) (A6 m c) (A7 m c) (A8 m c) (A9 m c) (A10 m c) (A11 m c) := by
  dsimp only [W13, hostOps5]
  after_results_simp
  rw [v93_at12 m ρ c]
  rfl

end Cert.KernelIdeal.KernelValue

end
-- ==== Proof.lean ====
/-
  The kernel and its reference compute the same function on the extended reals.

  The model scores 200000 node pairs of a graph with 100000 nodes and 1250000 edges: an encoder
  `h₀ = max (x·enc_W + enc_b) 0`; three SAGE layers `hᵢ₊₁ = max ((aᵢ·Wlᵢ + blᵢ) + hᵢ·Wrᵢ) 0`, where `aᵢ` is, per
  destination node, the sum of the source nodes' `hᵢ` over its incoming edges times the inverse of its in-degree
  (zero for a node with none); and for a pair `(u, v)` the predictor `max ([h₃[u], h₃[v]]·W1 + b1) 0 · W2 + b2`.

  The kernel runs the five dense stages as pallas_calls over blocks of 10000 rows, with operands narrowed to
  bf16 — the identity on extended reals — and does the gathers, the per-destination sums and the re-layouts on the
  host with the reference's own operations. Every dense stage is row-local, so a block of rows of the kernel's
  result is that block of the reference's, and the blocks cover the arrays exactly (10 × 10000 and 20 × 10000
  rows). No law beyond the equality of identical sums is used, so finiteness of the inputs is never opened.

  The modules: Proof/DenseSpec (the three dense stages index by index), Proof/MatProd (the kernels' matrix
  products as sums), Proof/EncRegion, SageRegion1–3, PredRegion (each region's output array as the dense function
  of its input arrays), Proof/FoldRun (the kernel's run, with every buffer at the end), Proof/Carry (buffers a
  stretch leaves alone), Proof/RefStages (the reference's dense stages as the same functions), Proof/KernelValue0–4
  (the kernel's buffers, boundary by boundary, in the reference's terms), Proof/LibTypedRef (conversions at a typed
  reference cancel). Proof/RefRun and Proof/RefRead are the
  reference's run and its one-operation reading lemmas.
-/
import proofs.«139122_j87677462380867_1_alg».proof.Defs
import proofs.«139122_j87677462380867_1_alg».proof.Proof.Gen.Kernel
import proofs.«139122_j87677462380867_1_alg».proof.Proof.Gen.Kernel.Frame
import proofs.«139122_j87677462380867_1_alg».proof.Proof.Gen.KernelIdeal
import proofs.«139122_j87677462380867_1_alg».proof.Proof.Gen.KernelIdeal.Frame
import proofs.«139122_j87677462380867_1_alg».proof.Proof.Gen.ReferenceIdeal
import proofs.«139122_j87677462380867_1_alg».proof.Proof.Gen.Pre_finite_inputs
import proofs.«139122_j87677462380867_1_alg».proof.Proof.RefRun
import proofs.«139122_j87677462380867_1_alg».proof.Proof.RefRead
import proofs.«139122_j87677462380867_1_alg».proof.Proof.FoldRun
import proofs.«139122_j87677462380867_1_alg».proof.Proof.KernelValue4
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the twelve arguments, the idealized kernel ends with its result buffer at the
    fold's last valuation, which is the reference's result term of the kernel's arguments; the reference ends at
    that term of its own arguments, which are the same arrays. -/
theorem algebraic : Cert.algebraic_KernelIdeal_ReferenceIdeal := by
  intro m ρ m' ρ' _ hagree
  refine ⟨fun c => Cert.KernelIdeal.Gen.W13 m ρ c (Proc.devRef .tc Cert.KernelIdeal.main_v94),
    Cert.KernelIdeal.Fold.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v124_eq, h0, h1, h2, h3, h4, h5, h6, h7, h8, h9, h10, h11]
  exact (Cert.KernelIdeal.KernelValue.v94_at13 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
